-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x64x64 : Shape := ⟨4, ![32, 128, 64, 64]⟩
abbrev S256x128x3x3 : Shape := ⟨4, ![256, 128, 3, 3]⟩
abbrev S_ : Shape := ⟨0, ![]⟩

class Facts : Prop where
  bcast_S_S32x128x64x64 : S_.BroadcastsInDim S32x128x64x64 (![] : Fin 0 → Fin S32x128x64x64.rank)
  reducesTo_S32x128x64x64_S_d0_1_2_3 : S32x128x64x64.ReducesTo [0, 1, 2, 3] S_
  h_S_ : 0 < S_.numel
  bcast_S_S256x128x3x3 : S_.BroadcastsInDim S256x128x3x3 (![] : Fin 0 → Fin S256x128x3x3.rank)
  reducesTo_S256x128x3x3_S_d0_1_2_3 : S256x128x3x3.ReducesTo [0, 1, 2, 3] S_

variable [Facts]

def fn {F : FTy → Type} [FloatOps F] (main_arg0 : FVec F S32x128x64x64 .f32) (main_arg1 : FVec F S256x128x3x3 .f32) : IVec S_ 1 :=
  let main_v0 : FVec F S32x128x64x64 .f32 := Host.absf main_arg0
  let main_cst : FVec F S_ .f32 := constant S_ .f32 0x7F800000#32
  let main_v1 : FVec F S32x128x64x64 .f32 := broadcastInDim S32x128x64x64 ![] bcast_S_S32x128x64x64 main_cst
  let main_v2 : IVec S32x128x64x64 1 := cmpf .olt main_v0 main_v1
  let main_c : IVec S_ 1 := constantI S_ 1 1#1
  let main_v3 : IVec S_ 1 := (fun x v => Host.reduce IntOp.andi x v reducesTo_S32x128x64x64_S_d0_1_2_3 h_S_) main_v2 main_c
  let main_v4 : FVec F S256x128x3x3 .f32 := Host.absf main_arg1
  let main_cst_0 : FVec F S_ .f32 := constant S_ .f32 0x7F800000#32
  let main_v5 : FVec F S256x128x3x3 .f32 := broadcastInDim S256x128x3x3 ![] bcast_S_S256x128x3x3 main_cst_0
  let main_v6 : IVec S256x128x3x3 1 := cmpf .olt main_v4 main_v5
  let main_c_1 : IVec S_ 1 := constantI S_ 1 1#1
  let main_v7 : IVec S_ 1 := (fun x v => Host.reduce IntOp.andi x v reducesTo_S256x128x3x3_S_d0_1_2_3 h_S_) main_v6 main_c_1
  let main_v8 : IVec S_ 1 := andi main_v3 main_v7
  main_v8
-- ==== Kernel.lean ====
abbrev S32x128x64x64 : Shape := ⟨4, ![32, 128, 64, 64]⟩
abbrev S256x128x3x3 : Shape := ⟨4, ![256, 128, 3, 3]⟩
abbrev S_ : Shape := ⟨0, ![]⟩
abbrev S256 : Shape := ⟨1, ![256]⟩
abbrev S256x1x1x1 : Shape := ⟨4, ![256, 1, 1, 1]⟩
abbrev S3x3x128x256 : Shape := ⟨4, ![3, 3, 128, 256]⟩
abbrev S1152x256 : Shape := ⟨2, ![1152, 256]⟩
abbrev S32x64x64x128 : Shape := ⟨4, ![32, 64, 64, 128]⟩
abbrev S32x66x64x128 : Shape := ⟨4, ![32, 66, 64, 128]⟩
abbrev S32x64x64x256 : Shape := ⟨4, ![32, 64, 64, 256]⟩
abbrev S1x66x64x128 : Shape := ⟨4, ![1, 66, 64, 128]⟩
abbrev S1x64x64x256 : Shape := ⟨4, ![1, 64, 64, 256]⟩
abbrev S66x64x128 : Shape := ⟨3, ![66, 64, 128]⟩
abbrev S66x1x128 : Shape := ⟨3, ![66, 1, 128]⟩
abbrev S66x65x128 : Shape := ⟨3, ![66, 65, 128]⟩
abbrev S66x66x128 : Shape := ⟨3, ![66, 66, 128]⟩
abbrev S64x64x128 : Shape := ⟨3, ![64, 64, 128]⟩
abbrev S64x64x1152 : Shape := ⟨3, ![64, 64, 1152]⟩
abbrev S4096x1152 : Shape := ⟨2, ![4096, 1152]⟩
abbrev S4096x256 : Shape := ⟨2, ![4096, 256]⟩
abbrev S64x64x256 : Shape := ⟨3, ![64, 64, 256]⟩
abbrev S32x256x64x64 : Shape := ⟨4, ![32, 256, 64, 64]⟩

abbrev nBuf : Space → Nat
  | .hbm => 28
  | .vmem => 5
  | .smem => 0
  | _ => 0

abbrev bufTy : (tb : Table) → Fin (tcTables nBuf tb) → BufTy
  | .hbm, ⟨0, _⟩ => ⟨S32x128x64x64, .f32⟩
  | .hbm, ⟨1, _⟩ => ⟨S256x128x3x3, .f32⟩
  | .hbm, ⟨2, _⟩ => ⟨S256x128x3x3, .f32⟩
  | .hbm, ⟨3, _⟩ => ⟨S_, .f32⟩
  | .hbm, ⟨4, _⟩ => ⟨S256, .f32⟩
  | .hbm, ⟨5, _⟩ => ⟨S256x1x1x1, .f32⟩
  | .hbm, ⟨6, _⟩ => ⟨S256x1x1x1, .f32⟩
  | .hbm, ⟨7, _⟩ => ⟨S_, .f32⟩
  | .hbm, ⟨8, _⟩ => ⟨S256x1x1x1, .f32⟩
  | .hbm, ⟨9, _⟩ => ⟨S256x1x1x1, .f32⟩
  | .hbm, ⟨10, _⟩ => ⟨S_, .f32⟩
  | .hbm, ⟨11, _⟩ => ⟨S256x1x1x1, .f32⟩
  | .hbm, ⟨12, _⟩ => ⟨S256x1x1x1, .f32⟩
  | .hbm, ⟨13, _⟩ => ⟨S256x128x3x3, .f32⟩
  | .hbm, ⟨14, _⟩ => ⟨S256x128x3x3, .f32⟩
  | .hbm, ⟨15, _⟩ => ⟨S_, .f32⟩
  | .hbm, ⟨16, _⟩ => ⟨S256x128x3x3, .f32⟩
  | .hbm, ⟨17, _⟩ => ⟨S256x128x3x3, .f32⟩
  | .hbm, ⟨18, _⟩ => ⟨S3x3x128x256, .f32⟩
  | .hbm, ⟨19, _⟩ => ⟨S1152x256, .f32⟩
  | .hbm, ⟨20, _⟩ => ⟨S1152x256, .bf16⟩
  | .hbm, ⟨21, _⟩ => ⟨S32x64x64x128, .f32⟩
  | .hbm, ⟨22, _⟩ => ⟨S32x64x64x128, .bf16⟩
  | .hbm, ⟨23, _⟩ => ⟨S_, .i32⟩
  | .hbm, ⟨24, _⟩ => ⟨S_, .bf16⟩
  | .hbm, ⟨25, _⟩ => ⟨S32x66x64x128, .bf16⟩
  | .hbm, ⟨26, _⟩ => ⟨S32x64x64x256, .f32⟩
  | .hbm, ⟨27, _⟩ => ⟨S32x256x64x64, .f32⟩
  | .local _ .vmem, ⟨0, _⟩ => ⟨S1x66x64x128, .bf16⟩
  | .local _ .vmem, ⟨1, _⟩ => ⟨S1x66x64x128, .bf16⟩
  | .local _ .vmem, ⟨2, _⟩ => ⟨S1152x256, .bf16⟩
  | .local _ .vmem, ⟨3, _⟩ => ⟨S1x64x64x256, .f32⟩
  | .local _ .vmem, ⟨4, _⟩ => ⟨S1x64x64x256, .f32⟩
  | _, _ => ⟨S32x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def k0_mult1 (i : grid0.Coords) : BitVec 32 :=
  let arg1 : BitVec 32 := BitVec.ofNat 32 (i 1).val
  let c64_i32 : BitVec 32 := 64#32
  let v0 : BitVec 32 := Scalar.muli arg1 c64_i32
  v0
def k0_off1 (i : grid0.Coords) : Fin 4 → Nat :=
  let c0 : Index := 0#32
  let arg1 : BitVec 32 := BitVec.ofNat 32 (i 1).val
  let c64_i32 : BitVec 32 := 64#32
  let v0 : BitVec 32 := Scalar.muli arg1 c64_i32
  let v1 : BitVec 32 := v0
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x66x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1152x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S256x128x3x3_S256_d1_2_3 : S256x128x3x3.ReducesTo [1, 2, 3] S256
  h_S_ : 0 < S_.numel
  bcast_S256_S256x1x1x1_0 : S256.BroadcastsInDim S256x1x1x1 (![0] : Fin 1 → Fin S256x1x1x1.rank)
  bcast_S_S256x1x1x1 : S_.BroadcastsInDim S256x1x1x1 (![] : Fin 0 → Fin S256x1x1x1.rank)
  bcast_S256x1x1x1_S256x128x3x3_0_1_2_3 : S256x1x1x1.BroadcastsInDim S256x128x3x3 (![0, 1, 2, 3] : Fin 4 → Fin S256x128x3x3.rank)
  bcast_S_S256x128x3x3 : S_.BroadcastsInDim S256x128x3x3 (![] : Fin 0 → Fin S256x128x3x3.rank)
  transposes_S256x128x3x3_S3x3x128x256_3_2_1_0 : S256x128x3x3.Transposes [3, 2, 1, 0] S3x3x128x256
  shapeCasts_S3x3x128x256_S1152x256 : S3x3x128x256.ShapeCasts S1152x256
  bitsLt_bf16_f32 : FTy.bits .bf16 < FTy.bits .f32
  transposes_S32x128x64x64_S32x64x64x128_0_2_3_1 : S32x128x64x64.Transposes [0, 2, 3, 1] S32x64x64x128
  pads_S32x64x64x128_S32x66x64x128_000_110_000_000 : S32x64x64x128.Pads (![0, 1, 0, 0] : Fin 4 → Nat) ![0, 1, 0, 0] ![0, 0, 0, 0] S32x66x64x128
  h_S1x66x64x128 : 0 < S1x66x64x128.numel
  shapeCasts_S1x66x64x128_S66x64x128 : S1x66x64x128.ShapeCasts S66x64x128
  concatenates_S66x1x128_S66x64x128_S66x65x128_d1 : Shape.Concatenates [S66x1x128, S66x64x128] S66x65x128 1
  concatenates_S66x65x128_S66x1x128_S66x66x128_d1 : Shape.Concatenates [S66x65x128, S66x1x128] S66x66x128 1
  slices_S66x66x128_o0_0_0_S66x64x128 : S66x66x128.Slices ![0, 0, 0] S66x64x128
  slices_S66x64x128_o0_0_0_S64x64x128 : S66x64x128.Slices ![0, 0, 0] S64x64x128
  slices_S66x64x128_o1_0_0_S64x64x128 : S66x64x128.Slices ![1, 0, 0] S64x64x128
  slices_S66x64x128_o2_0_0_S64x64x128 : S66x64x128.Slices ![2, 0, 0] S64x64x128
  slices_S66x66x128_o0_1_0_S66x64x128 : S66x66x128.Slices ![0, 1, 0] S66x64x128
  slices_S66x66x128_o0_2_0_S66x64x128 : S66x66x128.Slices ![0, 2, 0] S66x64x128
  concatenates_S64x64x128_S64x64x128_S64x64x128_S64x64x128_S64x64x128_S64x64x128_S64x64x128_S64x64x128_S64x64x128_S64x64x1152_d2 : Shape.Concatenates [S64x64x128, S64x64x128, S64x64x128, S64x64x128, S64x64x128, S64x64x128, S64x64x128, S64x64x128, S64x64x128] S64x64x1152 2
  shapeCasts_S64x64x1152_S4096x1152 : S64x64x1152.ShapeCasts S4096x1152
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  shapeCasts_S4096x256_S64x64x256 : S4096x256.ShapeCasts S64x64x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S1x64x64x256 : S64x64x256.ShapeCasts S1x64x64x256
  transposes_S32x64x64x256_S32x256x64x64_0_3_1_2 : S32x64x64x256.Transposes [0, 3, 1, 2] S32x256x64x64
  dot_S4096x1152_S1152x256_S4096x256_1_0_0_1_n_n_wf : DotDims.WF S4096x1152 S1152x256 S4096x256 [1] [0] [0] [1] [] []
  hrank0 : 0 < grid0.rank
  k0_mult1_dvd : ∀ i : grid0.Coords, 64 ∣ (k0_mult1 i).toNat
  k0_off1_inb : ∀ i : grid0.Coords, ∀ a, (k0_off1 i) a + S1x66x64x128.size a ≤ S1x66x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x66x64x128.size a ≤ S32x66x64x128.size a
  hwx0_0 : ∀ i : grid0.Coords, EltTy.bits .bf16 = 32 ∨ (Rect.block (s := S32x66x64x128) S1x66x64x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x256.size a ≤ S1152x256.size a
  hwx0_1 : ∀ i : grid0.Coords, EltTy.bits .bf16 = 32 ∨ (Rect.block (s := S1152x256) S1152x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x64x256.size a ≤ S32x64x64x256.size a
  hwx0_2 : ∀ i : grid0.Coords, EltTy.bits .f32 = 32 ∨ (Rect.block (s := S32x64x64x256) S1x64x64x256.size (cc0_transform_2 i) (hinb0_2 i)).WholeWords (EltTy.packing .f32)

variable [Facts₀]

def dot_S4096x1152_S1152x256_S4096x256_1_0_0_1_n_n : DotDims S4096x1152 S1152x256 S4096x256 where
  lhsContracting := [1]
  rhsContracting := [0]
  lhsNonContracting := [0]
  rhsNonContracting := [1]
  lhsBatch := []
  rhsBatch := []
  wf := dot_S4096x1152_S1152x256_S4096x256_1_0_0_1_n_n_wf

abbrev win0_0 : Pipeline.Window sig grid0 :=
  Pipeline.Window.ofSpec (Memref.whole main_v17) S1x66x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1152x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x128x64x64 : Shape := ⟨4, ![32, 128, 64, 64]⟩
abbrev S256x128x3x3 : Shape := ⟨4, ![256, 128, 3, 3]⟩
abbrev S_ : Shape := ⟨0, ![]⟩
abbrev S256 : Shape := ⟨1, ![256]⟩
abbrev S256x1x1x1 : Shape := ⟨4, ![256, 1, 1, 1]⟩
abbrev S3x3x128x256 : Shape := ⟨4, ![3, 3, 128, 256]⟩
abbrev S1152x256 : Shape := ⟨2, ![1152, 256]⟩
abbrev S32x64x64x128 : Shape := ⟨4, ![32, 64, 64, 128]⟩
abbrev S32x66x66x128 : Shape := ⟨4, ![32, 66, 66, 128]⟩
abbrev S32x64x64x256 : Shape := ⟨4, ![32, 64, 64, 256]⟩
abbrev S1x66x66x128 : Shape := ⟨4, ![1, 66, 66, 128]⟩
abbrev S1x8x64x256 : Shape := ⟨4, ![1, 8, 64, 256]⟩
abbrev S1x10x66x128 : Shape := ⟨4, ![1, 10, 66, 128]⟩
abbrev S10x66x128 : Shape := ⟨3, ![10, 66, 128]⟩
abbrev S8x66x128 : Shape := ⟨3, ![8, 66, 128]⟩
abbrev S8x64x128 : Shape := ⟨3, ![8, 64, 128]⟩
abbrev S8x64x1152 : Shape := ⟨3, ![8, 64, 1152]⟩
abbrev S512x1152 : Shape := ⟨2, ![512, 1152]⟩
abbrev S512x256 : Shape := ⟨2, ![512, 256]⟩
abbrev S32x256x64x64 : Shape := ⟨4, ![32, 256, 64, 64]⟩

abbrev nBuf : Space → Nat
  | .hbm => 29
  | .vmem => 5
  | .smem => 0
  | _ => 0

abbrev bufTy : (tb : Table) → Fin (tcTables nBuf tb) → BufTy
  | .hbm, ⟨0, _⟩ => ⟨S32x128x64x64, .f32⟩
  | .hbm, ⟨1, _⟩ => ⟨S256x128x3x3, .f32⟩
  | .hbm, ⟨2, _⟩ => ⟨S256x128x3x3, .f32⟩
  | .hbm, ⟨3, _⟩ => ⟨S_, .f32⟩
  | .hbm, ⟨4, _⟩ => ⟨S256, .f32⟩
  | .hbm, ⟨5, _⟩ => ⟨S256x1x1x1, .f32⟩
  | .hbm, ⟨6, _⟩ => ⟨S256x1x1x1, .f32⟩
  | .hbm, ⟨7, _⟩ => ⟨S_, .f32⟩
  | .hbm, ⟨8, _⟩ => ⟨S256x1x1x1, .f32⟩
  | .hbm, ⟨9, _⟩ => ⟨S256x1x1x1, .f32⟩
  | .hbm, ⟨10, _⟩ => ⟨S_, .f32⟩
  | .hbm, ⟨11, _⟩ => ⟨S256x1x1x1, .f32⟩
  | .hbm, ⟨12, _⟩ => ⟨S256x1x1x1, .f32⟩
  | .hbm, ⟨13, _⟩ => ⟨S256x128x3x3, .f32⟩
  | .hbm, ⟨14, _⟩ => ⟨S256x128x3x3, .f32⟩
  | .hbm, ⟨15, _⟩ => ⟨S_, .f32⟩
  | .hbm, ⟨16, _⟩ => ⟨S256x128x3x3, .f32⟩
  | .hbm, ⟨17, _⟩ => ⟨S256x128x3x3, .f32⟩
  | .hbm, ⟨18, _⟩ => ⟨S3x3x128x256, .f32⟩
  | .hbm, ⟨19, _⟩ => ⟨S1152x256, .f32⟩
  | .hbm, ⟨20, _⟩ => ⟨S_, .i32⟩
  | .hbm, ⟨21, _⟩ => ⟨S_, .f32⟩
  | .hbm, ⟨22, _⟩ => ⟨S1152x256, .f32⟩
  | .hbm, ⟨23, _⟩ => ⟨S32x64x64x128, .f32⟩
  | .hbm, ⟨24, _⟩ => ⟨S_, .i32⟩
  | .hbm, ⟨25, _⟩ => ⟨S_, .f32⟩
  | .hbm, ⟨26, _⟩ => ⟨S32x66x66x128, .f32⟩
  | .hbm, ⟨27, _⟩ => ⟨S32x64x64x256, .f32⟩
  | .hbm, ⟨28, _⟩ => ⟨S32x256x64x64, .f32⟩
  | .local _ .vmem, ⟨0, _⟩ => ⟨S1x66x66x128, .f32⟩
  | .local _ .vmem, ⟨1, _⟩ => ⟨S1x66x66x128, .f32⟩
  | .local _ .vmem, ⟨2, _⟩ => ⟨S1152x256, .f32⟩
  | .local _ .vmem, ⟨3, _⟩ => ⟨S1x8x64x256, .f32⟩
  | .local _ .vmem, ⟨4, _⟩ => ⟨S1x8x64x256, .f32⟩
  | _, _ => ⟨S32x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_call1_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  v0
def k0_off1 (i : grid0.Coords) : Fin 4 → Nat :=
  let c0 : Index := 0#32
  let arg1 : BitVec 32 := BitVec.ofNat 32 (i 1).val
  let c8_i32 : BitVec 32 := 8#32
  let v0 : BitVec 32 := Scalar.muli arg1 c8_i32
  let v1 : BitVec 32 := v0
  let v2 : Index := Scalar.indexCast v1
  let c0_0 : Index := 0#32
  let c0_1 : Index := 0#32
  ![0, v2.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x66x66x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1152x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  reducesTo_S256x128x3x3_S256_d1_2_3 : S256x128x3x3.ReducesTo [1, 2, 3] S256
  h_S_ : 0 < S_.numel
  bcast_S256_S256x1x1x1_0 : S256.BroadcastsInDim S256x1x1x1 (![0] : Fin 1 → Fin S256x1x1x1.rank)
  bcast_S_S256x1x1x1 : S_.BroadcastsInDim S256x1x1x1 (![] : Fin 0 → Fin S256x1x1x1.rank)
  bcast_S256x1x1x1_S256x128x3x3_0_1_2_3 : S256x1x1x1.BroadcastsInDim S256x128x3x3 (![0, 1, 2, 3] : Fin 4 → Fin S256x128x3x3.rank)
  bcast_S_S256x128x3x3 : S_.BroadcastsInDim S256x128x3x3 (![] : Fin 0 → Fin S256x128x3x3.rank)
  transposes_S256x128x3x3_S3x3x128x256_2_3_1_0 : S256x128x3x3.Transposes [2, 3, 1, 0] S3x3x128x256
  shapeCasts_S3x3x128x256_S1152x256 : S3x3x128x256.ShapeCasts S1152x256
  pads_S1152x256_S1152x256_000_000 : S1152x256.Pads (![0, 0] : Fin 2 → Nat) ![0, 0] ![0, 0] S1152x256
  transposes_S32x128x64x64_S32x64x64x128_0_2_3_1 : S32x128x64x64.Transposes [0, 2, 3, 1] S32x64x64x128
  pads_S32x64x64x128_S32x66x66x128_000_110_110_000 : S32x64x64x128.Pads (![0, 1, 1, 0] : Fin 4 → Nat) ![0, 1, 1, 0] ![0, 0, 0, 0] S32x66x66x128
  h_S1x10x66x128 : 0 < S1x10x66x128.numel
  shapeCasts_S1x10x66x128_S10x66x128 : S1x10x66x128.ShapeCasts S10x66x128
  slices_S10x66x128_o0_0_0_S8x66x128 : S10x66x128.Slices ![0, 0, 0] S8x66x128
  slices_S8x66x128_o0_0_0_S8x64x128 : S8x66x128.Slices ![0, 0, 0] S8x64x128
  slices_S8x66x128_o0_1_0_S8x64x128 : S8x66x128.Slices ![0, 1, 0] S8x64x128
  slices_S8x66x128_o0_2_0_S8x64x128 : S8x66x128.Slices ![0, 2, 0] S8x64x128
  slices_S10x66x128_o1_0_0_S8x66x128 : S10x66x128.Slices ![1, 0, 0] S8x66x128
  slices_S10x66x128_o2_0_0_S8x66x128 : S10x66x128.Slices ![2, 0, 0] S8x66x128
  concatenates_S8x64x128_S8x64x128_S8x64x128_S8x64x128_S8x64x128_S8x64x128_S8x64x128_S8x64x128_S8x64x128_S8x64x1152_d2 : Shape.Concatenates [S8x64x128, S8x64x128, S8x64x128, S8x64x128, S8x64x128, S8x64x128, S8x64x128, S8x64x128, S8x64x128] S8x64x1152 2
  shapeCasts_S8x64x1152_S512x1152 : S8x64x1152.ShapeCasts S512x1152
  inb_S1152x256_S1152x256_0_0 : ∀ a, (![0, 0] : Fin 2 → Nat) a + S1152x256.size a ≤ S1152x256.size a
  h_S1152x256 : 0 < S1152x256.numel
  shapeCasts_S1152x256_S1152x256 : S1152x256.ShapeCasts S1152x256
  shapeCasts_S512x256_S1x8x64x256 : S512x256.ShapeCasts S1x8x64x256
  inb_S1x8x64x256_S1x8x64x256_0_0_0_0 : ∀ a, (![0, 0, 0, 0] : Fin 4 → Nat) a + S1x8x64x256.size a ≤ S1x8x64x256.size a
  h_S1x8x64x256 : 0 < S1x8x64x256.numel
  transposes_S32x64x64x256_S32x256x64x64_0_3_1_2 : S32x64x64x256.Transposes [0, 3, 1, 2] S32x256x64x64
  dot_S512x1152_S1152x256_S512x256_1_0_0_1_n_n_wf : DotDims.WF S512x1152 S1152x256 S512x256 [1] [0] [0] [1] [] []
  hrank0 : 0 < grid0.rank
  k0_mult1_dvd : ∀ i : grid0.Coords, 8 ∣ (k0_mult1 i).toNat
  k0_off1_inb : ∀ i : grid0.Coords, ∀ a, (k0_off1 i) a + S1x10x66x128.size a ≤ S1x66x66x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x66x66x128.size a ≤ S32x66x66x128.size a
  hwx0_0 : ∀ i : grid0.Coords, EltTy.bits .f32 = 32 ∨ (Rect.block (s := S32x66x66x128) S1x66x66x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x256.size a ≤ S1152x256.size a
  hwx0_1 : ∀ i : grid0.Coords, EltTy.bits .f32 = 32 ∨ (Rect.block (s := S1152x256) S1152x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x256.size a ≤ S32x64x64x256.size a
  hwx0_2 : ∀ i : grid0.Coords, EltTy.bits .f32 = 32 ∨ (Rect.block (s := S32x64x64x256) S1x8x64x256.size (cc0_transform_2 i) (hinb0_2 i)).WholeWords (EltTy.packing .f32)

variable [Facts₀]

def dot_S512x1152_S1152x256_S512x256_1_0_0_1_n_n : DotDims S512x1152 S1152x256 S512x256 where
  lhsContracting := [1]
  rhsContracting := [0]
  lhsNonContracting := [0]
  rhsNonContracting := [1]
  lhsBatch := []
  rhsBatch := []
  wf := dot_S512x1152_S1152x256_S512x256_1_0_0_1_n_n_wf

abbrev win0_0 : Pipeline.Window sig grid0 :=
  Pipeline.Window.ofSpec (Memref.whole main_v16) S1x66x66x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1152x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x8x64x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.ConvSpec.lean ====
/-
  The convolution both programs compute, stated once, with no program in sight.

  An image batch x[n, ci, r, c] (32 × 128 × 64 × 64) is convolved with a 3 × 3 kernel stack w[co, ci, dy, dx]
  (256 × 128 × 3 × 3) under "same" zero padding: the output entry (n, co, h, v) is the sum, over the nine taps
  (dy, dx) and the 128 input channels ci, of the padded image at row h + dy, column v + dx (rows and columns counted
  from 0 in the 66 × 66 padded plane, whose outer ring is zero) times w[co, ci, dy, dx].

  Both programs lay the nine taps and the channels out along ONE contraction axis of length 1152 = 9 · 128 and take a
  single matrix product; they differ in the order of the taps along that axis. A sum over the 1152 positions is the
  triple sum over (first tap coordinate, second tap coordinate, channel), whatever the summand (`sum_1152`), and the
  two orders differ by exchanging the two outer sums — no finiteness is needed: only commutativity and associativity
  of addition on the extended reals.
-/
import Idealize.ShloMosaic.PureOps.Ideal
import Idealize.ShloMosaic.Lib.ValueIdx
import Mathlib.Algebra.BigOperators.Fin
import Mathlib.Logic.Equiv.Fin.Basic

noncomputable section

open scoped BigOperators

namespace Conv

open Idealize.ShloMosaic Idealize.ShloMosaic.ValueIdx

/-- The image batch, the kernel stack and the result, as index sets. -/
abbrev SX : Shape := ⟨4, ![32, 128, 64, 64]⟩
abbrev SW : Shape := ⟨4, ![256, 128, 3, 3]⟩
abbrev SO : Shape := ⟨4, ![32, 256, 64, 64]⟩

/-- The zero-padded image: entry (r, c) of the 66 × 66 plane of image n, channel ci. Rows and columns 1 … 64 hold
    the image, everything else is zero. -/
def xpad (x : SX.Idx → EReal) (n : Fin 32) (ci : Fin 128) (r c : ℕ) : EReal :=
  if h : (1 ≤ r ∧ r ≤ 64) ∧ (1 ≤ c ∧ c ≤ 64) then x (ix4 n ci ⟨r - 1, by omega⟩ ⟨c - 1, by omega⟩) else 0

/-- One output entry of the convolution. -/
def conv (x : SX.Idx → EReal) (w : SW.Idx → EReal) (n : Fin 32) (co : Fin 256) (h v : Fin 64) : EReal :=
  ∑ dy : Fin 3, ∑ dx : Fin 3, ∑ ci : Fin 128, xpad x n ci (h.val + dy.val) (v.val + dx.val) * w (ix4 co ci dy dx)

/-- The whole result array, in the layout [n, co, h, v]. -/
def convArr (x : SX.Idx → EReal) (w : SW.Idx → EReal) : SO.Idx → EReal :=
  fun i => conv x w (i 0) (i 1) (i 2) (i 3)

/-- A sum over a · b positions is the double sum over (block, position in the block). -/
theorem sum_fin_mul {M : Type*} [AddCommMonoid M] (a b : ℕ) (f : Fin (a * b) → M) :
    ∑ k, f k = ∑ i : Fin a, ∑ j : Fin b, f ⟨i.val * b + j.val, by
      have hi := i.isLt; have hj := j.isLt
      calc i.val * b + j.val < i.val * b + b := by omega
        _ = (i.val + 1) * b := by ring
        _ ≤ a * b := Nat.mul_le_mul_right b hi⟩ := by
  rw [← Equiv.sum_comp finProdFinEquiv f, Fintype.sum_prod_type]
  refine Finset.sum_congr rfl fun i _ => Finset.sum_congr rfl fun j _ => congrArg f (Fin.ext ?_)
  simp only [finProdFinEquiv_apply_val]
  ring

/-- A sum over the 1152 = 3 · 3 · 128 positions of the contraction axis is the triple sum over the position's three
    digits: position (a · 3 + b) · 128 + ci. -/
theorem sum_1152 {M : Type*} [AddCommMonoid M] (f : Fin 1152 → M) :
    ∑ k, f k = ∑ a : Fin 3, ∑ b : Fin 3, ∑ ci : Fin 128,
      f ⟨(a.val * 3 + b.val) * 128 + ci.val, by have := a.isLt; have := b.isLt; have := ci.isLt; omega⟩ := by
  have h1 := sum_fin_mul (M := M) 9 128 f
  have h2 := sum_fin_mul (M := M) 3 3 (fun p : Fin (3 * 3) => ∑ ci : Fin 128,
    f ⟨p.val * 128 + ci.val, by have := p.isLt; have := ci.isLt; omega⟩)
  exact h1.trans h2

end Conv

end
-- ==== Proof.WNorm.lean ====
/-
  The weight normalisation both programs apply to the kernel stack before the convolution, stated once:
  each output channel's 128 × 3 × 3 slab w[co] is divided by  ε + ‖w[co]‖ · s  and multiplied by  s,  where ‖·‖ is the
  Euclidean norm of the slab (the square root of the sum of its squares), ε and s are two single-precision literals
  (the same two words in both programs), and every operation is the exact one on the extended reals. Both programs
  spell this chain with the same operations in the same order, so each reads the normalised stack as THIS function of
  its second argument, and nothing in the comparison of the two programs ever looks inside it.
-/
import proofs.«152151_g2000206331192017_pallasbulk_745_16_alg».proof.Proof.ConvSpec

noncomputable section

namespace Conv

open Idealize.ShloMosaic

/-- The scalar shape, the vector of channel norms, and the same vector with three unit axes. -/
abbrev S0 : Shape := ⟨0, ![]⟩
abbrev SN : Shape := ⟨1, ![256]⟩
abbrev SN4 : Shape := ⟨4, ![256, 1, 1, 1]⟩

/-- The normalised kernel stack: w / (ε + sqrt(Σ w²) · s) · s, channel by channel. -/
def wn (w : FVec Ideal SW .f32) : FVec Ideal SW .f32 :=
  mulf (F := Ideal)
    (Host.divf (F := Ideal) w
      (broadcastInDim SW ![0, 1, 2, 3] (by decide)
        (addf (F := Ideal)
          (broadcastInDim SN4 ![] (by decide) (constant (F := Ideal) S0 .f32 0x38D1B717#32))
          (mulf (F := Ideal)
            (Host.sqrt (F := Ideal)
              (broadcastInDim SN4 ![0] (by decide)
                (Host.reduceAdd (F := Ideal) (mulf (F := Ideal) w w) (constant (F := Ideal) S0 .f32 0x00000000#32)
                  (by decide : SW.ReducesTo [1, 2, 3] SN) (by decide))))
            (broadcastInDim SN4 ![] (by decide) (constant (F := Ideal) S0 .f32 0x3CF15BEF#32))))))
    (broadcastInDim SW ![] (by decide) (constant (F := Ideal) S0 .f32 0x3CF15BEF#32))

end Conv

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.KPay.lean ====
/-
  One entry of what the kernel's body stores, read on the extended reals.

  The body views the staged image block as a 66 × 64 × 128 array (rows × columns × channels), puts a zero column before
  and after it (`wide`: 66 × 66 × 128), cuts from it the nine 64 × 64 × 128 windows whose top-left corner is (dy, dx)
  (`tapAt`), lays them side by side along the channel axis in the order dx · 3 + dy (`patches`: 64 × 64 × 1152), merges
  the two spatial axes and multiplies by the 1152 × 256 weight matrix. So the entry at output position (h, v) and
  output channel co is the sum over the 1152 contraction positions, which is the triple sum over (dx, dy, ci), of the
  widened block at (h + dy, v + dx, ci) times the weight matrix's row (dx · 3 + dy) · 128 + ci.
-/
import proofs.«152151_g2000206331192017_pallasbulk_745_16_alg».proof.Proof.Gen.KernelIdeal.Skeleton
import proofs.«152151_g2000206331192017_pallasbulk_745_16_alg».proof.Proof.WNorm
import proofs.«152151_g2000206331192017_pallasbulk_745_16_alg».proof.Proof.LibMatmulAt
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.KernelIdeal.Hand

open Cert.KernelIdeal Cert.KernelIdeal.Gen

/-- The staged image block with one zero column put before its 64 columns and one after: entry (r, c) of the
    66 × 66 plane, channel ci. -/
def xcol (X : FVec Ideal S1x66x64x128 .bf16) (r c : ℕ) (ci : Fin 128) : EReal :=
  if h : r < 66 ∧ (1 ≤ c ∧ c ≤ 64) then X (ix4 0 ⟨r, h.1⟩ ⟨c - 1, by omega⟩ ci) else 0

/-- The integer zero converted to a float is the extended real zero. -/
theorem zero_word : (Scalar.sitofp (F := Ideal) .bf16 (0#32 : BitVec 32) : EReal) = 0 := by
  rw [Ideal.scalar_sitofp_def]
  simp

/-- The block as the body widens it: a zero column, the 64 columns, a zero column. -/
def wide (X : FVec Ideal S1x66x64x128 .bf16) : FVec Ideal S66x66x128 .bf16 :=
  concatenate S66x66x128 1
    [⟨S66x65x128, concatenate S66x65x128 1
        [⟨S66x1x128, broadcast S66x1x128 (Scalar.sitofp (F := Ideal) .bf16 (0#32 : BitVec 32))⟩,
         ⟨S66x64x128, shapeCast S66x64x128 X shapeCasts_S1x66x64x128_S66x64x128⟩]
        concatenates_S66x1x128_S66x64x128_S66x65x128_d1⟩,
     ⟨S66x1x128, broadcast S66x1x128 (Scalar.sitofp (F := Ideal) .bf16 (0#32 : BitVec 32))⟩]
    concatenates_S66x65x128_S66x1x128_S66x66x128_d1

/-- The 64 × 64 window of the widened block whose top-left corner is row dy, column dx. -/
def tapAt (A : FVec Ideal S66x66x128 .bf16) (dx dy : ℕ) (h1 : S66x66x128.Slices ![0, dx, 0] S66x64x128)
    (h2 : S66x64x128.Slices ![dy, 0, 0] S64x64x128) : FVec Ideal S64x64x128 .bf16 :=
  extractStridedSlice S64x64x128 ![dy, 0, 0] (extractStridedSlice S66x64x128 ![0, dx, 0] A h1) h2

/-- The nine windows side by side along the channel axis, window (dx, dy) in place dx · 3 + dy. -/
def patches (A : FVec Ideal S66x66x128 .bf16) : FVec Ideal S64x64x1152 .bf16 :=
  concatenate S64x64x1152 2
    [⟨S64x64x128, tapAt A 0 0 slices_S66x66x128_o0_0_0_S66x64x128 slices_S66x64x128_o0_0_0_S64x64x128⟩,
     ⟨S64x64x128, tapAt A 0 1 slices_S66x66x128_o0_0_0_S66x64x128 slices_S66x64x128_o1_0_0_S64x64x128⟩,
     ⟨S64x64x128, tapAt A 0 2 slices_S66x66x128_o0_0_0_S66x64x128 slices_S66x64x128_o2_0_0_S64x64x128⟩,
     ⟨S64x64x128, tapAt A 1 0 slices_S66x66x128_o0_1_0_S66x64x128 slices_S66x64x128_o0_0_0_S64x64x128⟩,
     ⟨S64x64x128, tapAt A 1 1 slices_S66x66x128_o0_1_0_S66x64x128 slices_S66x64x128_o1_0_0_S64x64x128⟩,
     ⟨S64x64x128, tapAt A 1 2 slices_S66x66x128_o0_1_0_S66x64x128 slices_S66x64x128_o2_0_0_S64x64x128⟩,
     ⟨S64x64x128, tapAt A 2 0 slices_S66x66x128_o0_2_0_S66x64x128 slices_S66x64x128_o0_0_0_S64x64x128⟩,
     ⟨S64x64x128, tapAt A 2 1 slices_S66x66x128_o0_2_0_S66x64x128 slices_S66x64x128_o1_0_0_S64x64x128⟩,
     ⟨S64x64x128, tapAt A 2 2 slices_S66x66x128_o0_2_0_S66x64x128 slices_S66x64x128_o2_0_0_S64x64x128⟩]
    concatenates_S64x64x128_S64x64x128_S64x64x128_S64x64x128_S64x64x128_S64x64x128_S64x64x128_S64x64x128_S64x64x128_S64x64x1152_d2

/-- The body's stored value is the product of the merged patches with the weight matrix, reshaped to the block. -/
theorem pay_eq (X : FVec Ideal S1x66x64x128 .bf16) (W : FVec Ideal S1152x256 .bf16) :
    k0_pay1 (F := Ideal) X W
      = shapeCast S1x64x64x256
          (shapeCast S64x64x256
            (matmul dot_S4096x1152_S1152x256_S4096x256_1_0_0_1_n_n none
              (shapeCast S4096x1152 (patches (wide X)) shapeCasts_S64x64x1152_S4096x1152)
              (shapeCast S1152x256 W shapeCasts_S1152x256_S1152x256)
              (constant S4096x256 .f32 0x00000000#32))
            shapeCasts_S4096x256_S64x64x256)
          shapeCasts_S64x64x256_S1x64x64x256 := rfl

/-- A window of the widened block, entry by entry: shifted by its corner. -/
theorem tapAt_apply (A : FVec Ideal S66x66x128 .bf16) (dx dy : ℕ) (h1 : S66x66x128.Slices ![0, dx, 0] S66x64x128)
    (h2 : S66x64x128.Slices ![dy, 0, 0] S64x64x128) (h v : Fin 64) (ci : Fin 128) (hr : h.val + dy < 66) (hc : v.val + dx < 66) :
    tapAt A dx dy h1 h2 (ix3 h v ci) = A (ix3 ⟨h.val + dy, hr⟩ ⟨v.val + dx, hc⟩ ci) := by
  unfold tapAt
  refine Eq.trans (extractStridedSlice_apply _ _ h2 (ix3 h v ci) (ix3 ⟨h.val + dy, hr⟩ v ci) (fun a => match a with
    | ⟨0, _⟩ => by show h.val + dy = dy + h.val; omega
    | ⟨1, _⟩ => by show v.val = 0 + v.val; omega
    | ⟨2, _⟩ => by show ci.val = 0 + ci.val; omega)) ?_
  exact extractStridedSlice_apply _ _ h1 (ix3 ⟨h.val + dy, hr⟩ v ci) (ix3 ⟨h.val + dy, hr⟩ ⟨v.val + dx, hc⟩ ci) (fun a => match a with
    | ⟨0, _⟩ => by show h.val + dy = 0 + (h.val + dy); omega
    | ⟨1, _⟩ => by show v.val + dx = dx + v.val; omega
    | ⟨2, _⟩ => by show ci.val = 0 + ci.val; omega)

/-- The widened block, entry by entry: zero in the two added columns, the block elsewhere. -/
theorem wide_apply (X : FVec Ideal S1x66x64x128 .bf16) (r c : Fin 66) (ci : Fin 128) :
    wide X (ix3 r c ci) = xcol X r.val c.val ci := by
  have hc := c.isLt
  unfold wide xcol
  by_cases h65 : c.val = 65
  · rw [dif_neg (by omega)]
    refine Eq.trans (concatenate_apply_piece (t := S66x66x128) 1 _ _ (ix3 r c ci) 1 (by show (1 : ℕ) < 2; omega) S66x1x128 _ rfl rfl 65 rfl
      (ix3 r (0 : Fin 1) ci) (fun b hb => match b with | ⟨0, _⟩ => rfl | ⟨1, _⟩ => absurd rfl hb | ⟨2, _⟩ => rfl)
      (by show 65 + 0 = c.val; omega)) ?_
    exact zero_word
  · by_cases h0 : c.val = 0
    · rw [dif_neg (by omega)]
      refine Eq.trans (concatenate_apply_piece (t := S66x66x128) 1 _ _ (ix3 r c ci) 0 (by show (0 : ℕ) < 2; omega) S66x65x128 _ rfl rfl 0 rfl
        (ix3 r (⟨c.val, by omega⟩ : Fin 65) ci) (fun b hb => match b with | ⟨0, _⟩ => rfl | ⟨1, _⟩ => absurd rfl hb | ⟨2, _⟩ => rfl)
        (by show 0 + c.val = c.val; omega)) ?_
      refine Eq.trans (concatenate_apply_piece (t := S66x65x128) 1 _ _ (ix3 r (⟨c.val, by omega⟩ : Fin 65) ci) 0 (by show (0 : ℕ) < 2; omega) S66x1x128 _ rfl rfl 0 rfl
        (ix3 r (0 : Fin 1) ci) (fun b hb => match b with | ⟨0, _⟩ => rfl | ⟨1, _⟩ => absurd rfl hb | ⟨2, _⟩ => rfl)
        (by show 0 + 0 = c.val; omega)) ?_
      exact zero_word
    · rw [dif_pos ⟨r.isLt, by omega, by omega⟩]
      refine Eq.trans (concatenate_apply_piece (t := S66x66x128) 1 _ _ (ix3 r c ci) 0 (by show (0 : ℕ) < 2; omega) S66x65x128 _ rfl rfl 0 rfl
        (ix3 r (⟨c.val, by omega⟩ : Fin 65) ci) (fun b hb => match b with | ⟨0, _⟩ => rfl | ⟨1, _⟩ => absurd rfl hb | ⟨2, _⟩ => rfl)
        (by show 0 + c.val = c.val; omega)) ?_
      refine Eq.trans (concatenate_apply_piece (t := S66x65x128) 1 _ _ (ix3 r (⟨c.val, by omega⟩ : Fin 65) ci) 1 (by show (1 : ℕ) < 2; omega) S66x64x128 _ rfl rfl 1 rfl
        (ix3 r (⟨c.val - 1, by omega⟩ : Fin 64) ci) (fun b hb => match b with | ⟨0, _⟩ => rfl | ⟨1, _⟩ => absurd rfl hb | ⟨2, _⟩ => rfl)
        (by show 1 + (c.val - 1) = c.val; omega)) ?_
      refine shapeCast_apply X _ (ix3 r (⟨c.val - 1, by omega⟩ : Fin 64) ci) (ix4 0 r ⟨c.val - 1, by omega⟩ ci) ?_
      rw [Shape.rowMajor_val_four, Shape.rowMajor_val_three]
      show ((0 * 66 + r.val) * 64 + (c.val - 1)) * 128 + ci.val = (r.val * 64 + (c.val - 1)) * 128 + ci.val
      omega

/-- The side-by-side windows, entry by entry: position (dx · 3 + dy) · 128 + ci of the channel axis reads window
    (dx, dy) at channel ci. -/
theorem patches_apply (A : FVec Ideal S66x66x128 .bf16) (h v : Fin 64) (dx dy : Fin 3) (ci : Fin 128) :
    patches A (ix3 h v ⟨(dx.val * 3 + dy.val) * 128 + ci.val, by have := dx.isLt; have := dy.isLt; have := ci.isLt; omega⟩)
      = A (ix3 ⟨h.val + dy.val, by have := h.isLt; have := dy.isLt; omega⟩ ⟨v.val + dx.val, by have := v.isLt; have := dx.isLt; omega⟩ ci) := by
  unfold patches
  have hci := ci.isLt
  fin_cases dx <;> fin_cases dy
  · exact Eq.trans (concatenate_apply_piece (t := S64x64x1152) 2 _ _ (ix3 h v ⟨0 + ci.val, by omega⟩) 0 (by show (0 : ℕ) < 9; omega) S64x64x128 _ rfl rfl 0 rfl (ix3 h v ci)
      (fun b hb => match b with | ⟨0, _⟩ => rfl | ⟨1, _⟩ => rfl | ⟨2, _⟩ => absurd rfl hb) rfl) (tapAt_apply A 0 0 _ _ h v ci _ _)
  · exact Eq.trans (concatenate_apply_piece (t := S64x64x1152) 2 _ _ (ix3 h v ⟨128 + ci.val, by omega⟩) 1 (by show (1 : ℕ) < 9; omega) S64x64x128 _ rfl rfl 128 rfl (ix3 h v ci)
      (fun b hb => match b with | ⟨0, _⟩ => rfl | ⟨1, _⟩ => rfl | ⟨2, _⟩ => absurd rfl hb) rfl) (tapAt_apply A 0 1 _ _ h v ci _ _)
  · exact Eq.trans (concatenate_apply_piece (t := S64x64x1152) 2 _ _ (ix3 h v ⟨256 + ci.val, by omega⟩) 2 (by show (2 : ℕ) < 9; omega) S64x64x128 _ rfl rfl 256 rfl (ix3 h v ci)
      (fun b hb => match b with | ⟨0, _⟩ => rfl | ⟨1, _⟩ => rfl | ⟨2, _⟩ => absurd rfl hb) rfl) (tapAt_apply A 0 2 _ _ h v ci _ _)
  · exact Eq.trans (concatenate_apply_piece (t := S64x64x1152) 2 _ _ (ix3 h v ⟨384 + ci.val, by omega⟩) 3 (by show (3 : ℕ) < 9; omega) S64x64x128 _ rfl rfl 384 rfl (ix3 h v ci)
      (fun b hb => match b with | ⟨0, _⟩ => rfl | ⟨1, _⟩ => rfl | ⟨2, _⟩ => absurd rfl hb) rfl) (tapAt_apply A 1 0 _ _ h v ci _ _)
  · exact Eq.trans (concatenate_apply_piece (t := S64x64x1152) 2 _ _ (ix3 h v ⟨512 + ci.val, by omega⟩) 4 (by show (4 : ℕ) < 9; omega) S64x64x128 _ rfl rfl 512 rfl (ix3 h v ci)
      (fun b hb => match b with | ⟨0, _⟩ => rfl | ⟨1, _⟩ => rfl | ⟨2, _⟩ => absurd rfl hb) rfl) (tapAt_apply A 1 1 _ _ h v ci _ _)
  · exact Eq.trans (concatenate_apply_piece (t := S64x64x1152) 2 _ _ (ix3 h v ⟨640 + ci.val, by omega⟩) 5 (by show (5 : ℕ) < 9; omega) S64x64x128 _ rfl rfl 640 rfl (ix3 h v ci)
      (fun b hb => match b with | ⟨0, _⟩ => rfl | ⟨1, _⟩ => rfl | ⟨2, _⟩ => absurd rfl hb) rfl) (tapAt_apply A 1 2 _ _ h v ci _ _)
  · exact Eq.trans (concatenate_apply_piece (t := S64x64x1152) 2 _ _ (ix3 h v ⟨768 + ci.val, by omega⟩) 6 (by show (6 : ℕ) < 9; omega) S64x64x128 _ rfl rfl 768 rfl (ix3 h v ci)
      (fun b hb => match b with | ⟨0, _⟩ => rfl | ⟨1, _⟩ => rfl | ⟨2, _⟩ => absurd rfl hb) rfl) (tapAt_apply A 2 0 _ _ h v ci _ _)
  · exact Eq.trans (concatenate_apply_piece (t := S64x64x1152) 2 _ _ (ix3 h v ⟨896 + ci.val, by omega⟩) 7 (by show (7 : ℕ) < 9; omega) S64x64x128 _ rfl rfl 896 rfl (ix3 h v ci)
      (fun b hb => match b with | ⟨0, _⟩ => rfl | ⟨1, _⟩ => rfl | ⟨2, _⟩ => absurd rfl hb) rfl) (tapAt_apply A 2 1 _ _ h v ci _ _)
  · exact Eq.trans (concatenate_apply_piece (t := S64x64x1152) 2 _ _ (ix3 h v ⟨1024 + ci.val, by omega⟩) 8 (by show (8 : ℕ) < 9; omega) S64x64x128 _ rfl rfl 1024 rfl (ix3 h v ci)
      (fun b hb => match b with | ⟨0, _⟩ => rfl | ⟨1, _⟩ => rfl | ⟨2, _⟩ => absurd rfl hb) rfl) (tapAt_apply A 2 2 _ _ h v ci _ _)

/-- What the body stores, entry by entry: the sum over the taps (column shift dx outermost, row shift dy next) and
    the channels of the widened block times the weight matrix's row (dx · 3 + dy) · 128 + ci. -/
theorem pay_apply (X : FVec Ideal S1x66x64x128 .bf16) (W : FVec Ideal S1152x256 .bf16) (h v : Fin 64) (co : Fin 256) :
    k0_pay1 (F := Ideal) X W (ix4 0 h v co)
      = ∑ dx : Fin 3, ∑ dy : Fin 3, ∑ ci : Fin 128,
          xcol X (h.val + dy.val) (v.val + dx.val) ci
            * W (ix2 ⟨(dx.val * 3 + dy.val) * 128 + ci.val, by have := dx.isLt; have := dy.isLt; have := ci.isLt; omega⟩ co) := by
  have hh := h.isLt
  have hv := v.isLt
  rw [pay_eq]
  refine Eq.trans (shapeCast_apply _ shapeCasts_S64x64x256_S1x64x64x256 (ix4 (0 : Fin 1) h v co) (ix3 h v co) (by
    rw [Shape.rowMajor_val_four, Shape.rowMajor_val_three]
    show (h.val * 64 + v.val) * 256 + co.val = ((0 * 64 + h.val) * 64 + v.val) * 256 + co.val
    omega)) ?_
  refine Eq.trans (shapeCast_apply _ shapeCasts_S4096x256_S64x64x256 (ix3 h v co) (ix2 (⟨h.val * 64 + v.val, by omega⟩ : Fin 4096) co) (by
    rw [Shape.rowMajor_val_two, Shape.rowMajor_val_three]
    show (h.val * 64 + v.val) * 256 + co.val = (h.val * 64 + v.val) * 256 + co.val
    rfl)) ?_
  refine Eq.trans (matmul_zero_plain_apply _ rfl none _ _ _) ?_
  rw [Conv.sum_1152]
  refine Finset.sum_congr rfl fun dx _ => Finset.sum_congr rfl fun dy _ => Finset.sum_congr rfl fun ci _ => ?_
  have hdx := dx.isLt
  have hdy := dy.isLt
  have hci := ci.isLt
  congr 1
  · refine Eq.trans (shapeCast_apply _ shapeCasts_S64x64x1152_S4096x1152 _
      (ix3 h v (⟨(dx.val * 3 + dy.val) * 128 + ci.val, by omega⟩ : Fin 1152)) (by
        rw [Shape.rowMajor_val_two, Shape.rowMajor_val_three]
        show (h.val * 64 + v.val) * 1152 + ((dx.val * 3 + dy.val) * 128 + ci.val) = (h.val * 64 + v.val) * 1152 + ((dx.val * 3 + dy.val) * 128 + ci.val)
        rfl)) ?_
    rw [patches_apply (wide X) h v dx dy ci]
    exact wide_apply X _ _ ci
  · rw [shapeCast_self]

end Cert.KernelIdeal.Hand

end
-- ==== Proof.KHost.lean ====
import proofs.«152151_g2000206331192017_pallasbulk_745_16_alg».proof.Proof.Gen.KernelIdeal.Frame
import proofs.«152151_g2000206331192017_pallasbulk_745_16_alg».proof.Proof.WNorm
import Idealize.ShloMosaic.Lib.Pipeline.Value
import Idealize.ShloMosaic.Lib.ValueIdx
import Idealize.ShloMosaic.Lib.StableHlo.Run
import Idealize.ShloMosaic.Lib.KernelVsHost

noncomputable section

open scoped BigOperators
open Idealize.ShloMosaic Idealize.ShloMosaic.TcCoe Idealize.SL.Sem Idealize.ShloMosaic.ValueIdx

namespace Cert.KernelIdeal.Hand

open Cert.KernelIdeal Cert.KernelIdeal.Gen

variable (m : (ℓ : Loc nD τ sig) → Buf (Elt Ideal) ℓ)

/-- The weight matrix as the host operations' composed term of the weight argument: the normalised stack, its axes
    reordered to (dx, dy, ci, co), flattened to 1152 rows, then narrowed (no change on extended reals). -/
theorem vW_eq (c : Dev nD) :
    (V m c main_v14 : S1152x256.Idx → EReal) =
      truncf (F := Ideal) .bf16
        (shapeCast S1152x256
          (transpose S3x3x128x256 [3, 2, 1, 0] (Conv.wn (m ((c : Thread nD τ).loc main_arg1))) transposes_S256x128x3x3_S3x3x128x256_3_2_1_0)
          shapeCasts_S3x3x128x256_S1152x256) bitsLt_bf16_f32 := by
  dsimp only [Gen.V, Gen.V0]
  simp only [Gen.hostOps0, Gen.hostOps0_1, List.flatten_cons, List.flatten_nil, List.append_nil, List.cons_append, List.nil_append]
  after_results
  rfl

/-- Row p = (dx · 3 + dy) · 128 + ci of the flattened array is entry (dx, dy, ci) of the reordered stack (row-major
    position ((dx · 3 + dy) · 128 + ci) · 256 + co on both sides), and the reordering [3, 2, 1, 0] puts the stack's
    entry (co, ci, dy, dx) there; the narrowing reads through. -/
theorem flatT_apply (w : FVec Ideal S256x128x3x3 .f32) (dx dy : Fin 3) (ci : Fin 128) (co : Fin 256) (p : Fin 1152)
    (hp : p.val = (dx.val * 3 + dy.val) * 128 + ci.val) :
    (truncf (F := Ideal) .bf16
        (shapeCast S1152x256
          (transpose S3x3x128x256 [3, 2, 1, 0] w transposes_S256x128x3x3_S3x3x128x256_3_2_1_0)
          shapeCasts_S3x3x128x256_S1152x256) bitsLt_bf16_f32 : S1152x256.Idx → EReal) (ix2 p co)
      = w (ix4 co ci dy dx) := by
  refine (truncf_apply (φ := .f32) (ψ := .bf16) _ bitsLt_bf16_f32 (ix2 p co)).trans ?_
  refine (shapeCast_apply _ _ (ix2 p co) (ix4 dx dy ci co) ?_).trans ?_
  · rw [Shape.rowMajor_val_four, Shape.rowMajor_val_two]
    show ((dx.val * 3 + dy.val) * 128 + ci.val) * 256 + co.val = p.val * 256 + co.val
    rw [hp]
  refine transpose_apply _ _ _ _ (ix4 co ci dy dx) ?_
  intro b
  match b with
  | ⟨0, _⟩ => rfl
  | ⟨1, _⟩ => rfl
  | ⟨2, _⟩ => rfl
  | ⟨3, _⟩ => rfl

/-- The weight matrix the region finds: row (dx · 3 + dy) · 128 + ci, column co holds the normalised stack at
    (co, ci, dy, dx). -/
theorem vW_apply (c : Dev nD) (dx dy : Fin 3) (ci : Fin 128) (co : Fin 256) :
    (V m c main_v14 : S1152x256.Idx → EReal)
        (ix2 ⟨(dx.val * 3 + dy.val) * 128 + ci.val, by have := dx.isLt; have := dy.isLt; have := ci.isLt; omega⟩ co)
      = Conv.wn (m ((c : Thread nD τ).loc main_arg1)) (ix4 co ci dy dx) := by
  rw [vW_eq m c]
  exact flatT_apply _ dx dy ci co _ rfl

/-- The image with one zero row above and one below: entry (r, v) of the 66 × 64 plane of image n, channel ci. -/
def xrow (x : FVec Ideal S32x128x64x64 .f32) (n : Fin 32) (ci : Fin 128) (r : ℕ) (v : Fin 64) : EReal :=
  if h : 1 ≤ r ∧ r ≤ 64 then x (ix4 n ci ⟨r - 1, by omega⟩ v) else 0

/-- The padding value: the integer zero converted to a float is the extended real zero. -/
theorem padv_zero (i : S_.Idx) : (sitofp (F := Ideal) .bf16 (constantI S_ 32 0#32) : S_.Idx → EReal) i = 0 := by
  show (((0#32 : BitVec 32).toInt : ℝ) : EReal) = 0
  simp

/-- The image array as the host operations' composed term of the image argument: channels moved last, narrowed, then
    padded along the row axis. -/
theorem vX_eq (c : Dev nD) :
    (V m c main_v17 : S32x66x64x128.Idx → EReal) =
      pad S32x66x64x128 ![0, 1, 0, 0] ![0, 1, 0, 0] ![0, 0, 0, 0]
        (truncf (F := Ideal) .bf16
          (transpose S32x64x64x128 [0, 2, 3, 1] (m ((c : Thread nD τ).loc main_arg0)) transposes_S32x128x64x64_S32x64x64x128_0_2_3_1)
          bitsLt_bf16_f32)
        (sitofp (F := Ideal) .bf16 (constantI S_ 32 0#32)) pads_S32x64x64x128_S32x66x64x128_000_110_000_000 h_S_ := by
  dsimp only [Gen.V, Gen.V0]
  simp only [Gen.hostOps0, Gen.hostOps0_1, List.flatten_cons, List.flatten_nil, List.append_nil, List.cons_append, List.nil_append]
  after_results
  rfl

/-- Channels moved last, then one zero row on each side of the row axis: entry (n, r, v, ci) is the image at
    (n, ci, r − 1, v) when r lies in 1 … 64 (the pad's low offset on that axis is 1, its interior step 1; the other
    axes are not padded), and the padding value, zero, when it lies outside. -/
theorem padT_apply (x : FVec Ideal S32x128x64x64 .f32) (n : Fin 32) (r : Fin 66) (v : Fin 64) (ci : Fin 128) :
    (pad S32x66x64x128 ![0, 1, 0, 0] ![0, 1, 0, 0] ![0, 0, 0, 0]
        (truncf (F := Ideal) .bf16
          (transpose S32x64x64x128 [0, 2, 3, 1] x transposes_S32x128x64x64_S32x64x64x128_0_2_3_1)
          bitsLt_bf16_f32)
        (sitofp (F := Ideal) .bf16 (constantI S_ 32 0#32)) pads_S32x64x64x128_S32x66x64x128_000_110_000_000 h_S_
          : S32x66x64x128.Idx → EReal) (ix4 n r v ci)
      = xrow x n ci r.val v := by
  unfold xrow
  by_cases h : 1 ≤ r.val ∧ r.val ≤ 64
  · rw [dif_pos h]
    refine (pad_apply_of_inside _ _ _ _ _ _ _ (ix4 n r v ci)
      (ix4 n (⟨r.val - 1, by omega⟩ : Fin 64) v ci) ?_).trans ?_
    · intro a
      match a with
      | ⟨0, _⟩ => show n.val = 0 + n.val * (0 + 1); omega
      | ⟨1, _⟩ => show r.val = 1 + (r.val - 1) * (0 + 1); omega
      | ⟨2, _⟩ => show v.val = 0 + v.val * (0 + 1); omega
      | ⟨3, _⟩ => show ci.val = 0 + ci.val * (0 + 1); omega
    · refine (truncf_apply (φ := .f32) (ψ := .bf16) _ bitsLt_bf16_f32 (ix4 n (⟨r.val - 1, by omega⟩ : Fin 64) v ci)).trans ?_
      refine transpose_apply _ _ _ _ (ix4 n ci (⟨r.val - 1, by omega⟩ : Fin 64) v) ?_
      intro b
      match b with
      | ⟨0, _⟩ => rfl
      | ⟨1, _⟩ => rfl
      | ⟨2, _⟩ => rfl
      | ⟨3, _⟩ => rfl
  · rw [dif_neg h]
    refine (pad_apply_of_not_inside _ _ _ _ _ _ _ (ix4 n r v ci) ⟨1, by decide⟩ ?_).trans (padv_zero _)
    show ¬(1 ≤ r.val ∧ (r.val - 1) % (0 + 1) = 0 ∧ (r.val - 1) / (0 + 1) < 64)
    omega

/-- The image array the region finds: channels last, one zero row above and one below each image. -/
theorem vX_apply (c : Dev nD) (n : Fin 32) (r : Fin 66) (v : Fin 64) (ci : Fin 128) :
    (V m c main_v17 : S32x66x64x128.Idx → EReal) (ix4 n r v ci)
      = xrow (m ((c : Thread nD τ).loc main_arg0)) n ci r.val v := by
  rw [vX_eq m c]
  exact padT_apply _ n r v ci

/-- The closing transpose puts the output channel second. -/
theorem tail_apply (A : FVec Ideal S32x64x64x256 .f32) (n : Fin 32) (co : Fin 256) (h v : Fin 64) :
    transpose S32x256x64x64 [0, 3, 1, 2] A transposes_S32x64x64x256_S32x256x64x64_0_3_1_2 (ix4 n co h v) = A (ix4 n h v co) := by
  refine transpose_apply _ _ _ _ (ix4 n h v co) ?_
  intro b
  match b with
  | ⟨0, _⟩ => rfl
  | ⟨1, _⟩ => rfl
  | ⟨2, _⟩ => rfl
  | ⟨3, _⟩ => rfl

end Cert.KernelIdeal.Hand

end
-- ==== Proof.KRun.lean ====
/-
  The kernel program's run read as a value. Each of the 32 grid points stages one image of the channels-last,
  row-padded batch (66 × 64 × 128) and the whole 1152 × 256 weight matrix, pads the image's columns with zeros, gathers
  for every output position the 3 × 3 × 128 values under the nine taps into one row of a 4096 × 1152 matrix and stores the
  product with the weight matrix as the image's 64 × 64 × 256 output block. Entry by entry that block is the
  convolution (`pay_conv`); the 32 blocks tile the output array (`cover`), so the array ends at `G`, and the closing
  transpose turns `G` into `Conv.convArr`.
-/
import proofs.«152151_g2000206331192017_pallasbulk_745_16_alg».proof.Proof.Gen.KernelIdeal.Frame
import proofs.«152151_g2000206331192017_pallasbulk_745_16_alg».proof.Proof.KPay
import proofs.«152151_g2000206331192017_pallasbulk_745_16_alg».proof.Proof.KHost
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg)

theorem zero4 : (![0, 0, 0, 0] : Fin 4 → Nat) = fun _ => 0 := funext fun a => by fin_cases a <;> rfl
theorem zero2 : (![0, 0] : Fin 2 → Nat) = fun _ => 0 := funext fun a => by fin_cases a <;> rfl

/-- The body's one load of the image block starts at row 0 at every grid point (the second grid axis has one point). -/
theorem off_zero : ∀ i : grid0.Coords, ∀ a, k0_off1 i a = 0 := by decide +kernel

/-- What the body leaves in the output's staging buffer: the payload of the two staged blocks (the body's dead load of
    the output block does not enter it). -/
theorem piece (c : Dev nD) (i : grid0.Coords) (arg2 : Memref sig .tc .vmem S1x66x64x128 .bf16) (harg2 : arg2.IsWhole) (arg3 : Memref sig .tc .vmem S1152x256 .bf16) (harg3 : arg3.IsWhole) (arg4 : Memref sig .tc .vmem S1x64x64x256 .f32) (harg4 : arg4.IsWhole)
    (x0 : Vec Ideal S1x66x64x128 .bf16) (x1 : Vec Ideal S1152x256 .bf16) :
    out0_A_2 (F := Ideal) c i arg2 harg2 arg3 harg3 arg4 harg4 x0 x1 = k0_pay1 x0 x1 := by
  unfold out0_A_2
  rw [View.read_writes_eq_canon _ _ _ (cover0_A_2 c i arg2 harg2 arg3 harg3 arg4 harg4 x0 x1)]
  unfold kernelRun0_A
  dsimp only
  rw [View.canon_unit_zero zero4]
  simp only [View.readAt_eq_ld, harg2.read_unread, harg3.read_unread, View.ld_unit_zero (S := S1152x256) zero2,
    View.ld_unit_zero (S := S1x66x64x128) (funext (off_zero i))]

/-- The widened block of an image whose rows are already padded is the fully padded image. -/
theorem xcol_eq (x : FVec Ideal S32x128x64x64 .f32) (n : Fin 32) (X : FVec Ideal S1x66x64x128 .bf16)
    (hX : ∀ (r : Fin 66) (v : Fin 64) (ci : Fin 128), X (ix4 0 r v ci) = xrow x n ci r.val v)
    (r c : ℕ) (hr : r < 66) (ci : Fin 128) : xcol X r c ci = Conv.xpad x n ci r c := by
  unfold xcol Conv.xpad
  by_cases hc : 1 ≤ c ∧ c ≤ 64
  · rw [dif_pos ⟨hr, hc⟩, hX]
    unfold xrow
    by_cases hr' : 1 ≤ r ∧ r ≤ 64
    · rw [dif_pos hr', dif_pos ⟨hr', hc⟩]
    · rw [dif_neg hr', dif_neg (fun h => hr' h.1)]
  · rw [dif_neg (fun h => hc h.2), dif_neg (fun h => hc h.2)]

/-- One entry of the payload is one entry of the convolution, when the staged image block is image n with its rows
    padded and the staged weight matrix holds the stack w with its taps laid out column shift first: the two orders of
    the nine taps are one sum. -/
theorem pay_conv (x : FVec Ideal S32x128x64x64 .f32) (w : FVec Ideal S256x128x3x3 .f32) (n : Fin 32)
    (X : FVec Ideal S1x66x64x128 .bf16) (W : FVec Ideal S1152x256 .bf16)
    (hX : ∀ (r : Fin 66) (v : Fin 64) (ci : Fin 128), X (ix4 0 r v ci) = xrow x n ci r.val v)
    (hW : ∀ (dx dy : Fin 3) (ci : Fin 128) (co : Fin 256),
      W (ix2 ⟨(dx.val * 3 + dy.val) * 128 + ci.val, by have := dx.isLt; have := dy.isLt; have := ci.isLt; omega⟩ co) = w (ix4 co ci dy dx))
    (h v : Fin 64) (co : Fin 256) :
    k0_pay1 (F := Ideal) X W (ix4 0 h v co) = Conv.conv x w n co h v := by
  rw [pay_apply]
  unfold Conv.conv
  rw [Finset.sum_comm]
  refine Finset.sum_congr rfl fun dy _ => Finset.sum_congr rfl fun dx _ => Finset.sum_congr rfl fun ci _ => ?_
  rw [xcol_eq x n X hX _ _ (by have := h.isLt; have := dy.isLt; omega) ci, hW]

/-- The block index maps over the 32 grid points: the image window and the output window move together along the
    batch axis and sit at block 0 on every other axis; the weight window never moves. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) < 32 ∧ win0_2.index t (1 : Fin 4) = 0
    ∧ win0_2.index t (2 : Fin 4) = 0 ∧ win0_2.index t (3 : Fin 4) = 0 :=
  (by decide +kernel : ∀ t : Fin grid0.N, _)

/-- Every image of the batch is some grid point's output block. -/
theorem idx_onto : ∀ q : Fin 32, ∃ t : Fin cfg0.N, win0_2.index t = ![q.val, 0, 0, 0] :=
  (by decide +kernel : ∀ q : Fin 32, ∃ t : Fin grid0.N, win0_2.index t = ![q.val, 0, 0, 0])

/-- The staged image block at point t is image n of the array the region finds, n the point's batch index. -/
theorem blkX (c : Dev nD) (t : Fin cfg0.N) (n : Fin 32) (hn : n.val = win0_2.index t (0 : Fin 4))
    (r : Fin 66) (v : Fin 64) (ci : Fin 128) :
    (iblk m c 0 t : S1x66x64x128.Idx → EReal) (ix4 0 r v ci) = (V m c main_v17 : S32x66x64x128.Idx → EReal) (ix4 n r v ci) := by
  obtain ⟨e0, e1, e2, e3, -⟩ := idx_facts t
  unfold iblk
  rw [View.read_apply]
  show (V m c main_v17 : S32x66x64x128.Idx → EReal) _ = (V m c main_v17 : S32x66x64x128.Idx → EReal) _
  congr 1
  funext a
  apply Fin.ext
  match a with
  | ⟨0, _⟩ => show win0_0.index t (0 : Fin 4) * 1 + 1 * 0 = n.val; omega
  | ⟨1, _⟩ => show win0_0.index t (1 : Fin 4) * 66 + 1 * r.val = r.val; omega
  | ⟨2, _⟩ => show win0_0.index t (2 : Fin 4) * 64 + 1 * v.val = v.val; omega
  | ⟨3, _⟩ => show win0_0.index t (3 : Fin 4) * 128 + 1 * ci.val = ci.val; omega

/-- The staged weight block is the whole weight matrix. -/
theorem blkW (c : Dev nD) (t : Fin cfg0.N) (k : Fin 1152) (co : Fin 256) :
    (iblk m c 1 t : S1152x256.Idx → EReal) (ix2 k co) = (V m c main_v14 : S1152x256.Idx → EReal) (ix2 k co) := by
  obtain ⟨-, -, -, -, e4, e5, -⟩ := idx_facts t
  unfold iblk
  rw [View.read_apply]
  show (V m c main_v14 : S1152x256.Idx → EReal) _ = (V m c main_v14 : S1152x256.Idx → EReal) _
  congr 1
  funext a
  apply Fin.ext
  match a with
  | ⟨0, _⟩ => show win0_1.index t (0 : Fin 2) * 1152 + 1 * k.val = k.val; omega
  | ⟨1, _⟩ => show win0_1.index t (1 : Fin 2) * 256 + 1 * co.val = co.val; omega

/-- The result before the closing transpose, in the layout [n, h, v, co]. -/
def G (c : Dev nD) : S32x64x64x256.Idx → EReal := fun i =>
  Conv.conv (m ((c : Thread nD τ).loc main_arg0)) (Conv.wn (m ((c : Thread nD τ).loc main_arg1))) (i 0) (i 3) (i 1) (i 2)

/-- What grid point t writes back is image t of `G`. -/
theorem flushed_eq (c : Dev nD) (t : Fin cfg0.N) :
    (dats m 0 c).flushed 2 t = ((cfg0.win 2).blk t).view.read (Elt Ideal) (G m c) := by
  show (cfg0.win 2).cut (grid0.coords t) ((dats m 0 c).after 2 t) = _
  rw [after0_2]
  unfold outsAt0
  rw [piece]
  obtain ⟨e0, e1, e2, e3, e4, e5, e6, e7, e8, e9⟩ := idx_facts t
  funext y
  rw [View.read_apply]
  revert y
  show ∀ y : S1x64x64x256.Idx, k0_pay1 (F := Ideal) (iblk m c 0 t) (iblk m c 1 t) y = G m c (((cfg0.win 2).blk t).view.emb y)
  intro y
  obtain ⟨z, h, v, co, rfl⟩ : ∃ (z : Fin 1) (h v : Fin 64) (co : Fin 256), y = ix4 z h v co := ⟨y 0, y 1, y 2, y 3, eq_ix4 y⟩
  obtain rfl : z = 0 := Subsingleton.elim _ _
  have hemb : ((cfg0.win 2).blk t).view.emb (ix4 (0 : Fin 1) h v co)
      = (ix4 (⟨win0_2.index t (0 : Fin 4), e6⟩ : Fin 32) h v co : S32x64x64x256.Idx) := by
    funext a
    apply Fin.ext
    match a with
    | ⟨0, _⟩ => show win0_2.index t (0 : Fin 4) * 1 + 1 * 0 = win0_2.index t (0 : Fin 4); omega
    | ⟨1, _⟩ => show win0_2.index t (1 : Fin 4) * 64 + 1 * h.val = h.val; omega
    | ⟨2, _⟩ => show win0_2.index t (2 : Fin 4) * 64 + 1 * v.val = v.val; omega
    | ⟨3, _⟩ => show win0_2.index t (3 : Fin 4) * 256 + 1 * co.val = co.val; omega
  rw [hemb]
  exact pay_conv _ _ (⟨win0_2.index t (0 : Fin 4), e6⟩ : Fin 32) (iblk m c 0 t) (iblk m c 1 t)
    (fun r v ci => (blkX m c t ⟨win0_2.index t (0 : Fin 4), e6⟩ rfl r v ci).trans (vX_apply m c _ r v ci))
    (fun dx dy ci co => (blkW m c t _ co).trans (vW_apply m c dx dy ci co)) h v co

/-- An index of the result array lies in point t's block iff each coordinate lies in the block's range on its axis. -/
theorem mem_blk (t : Fin cfg0.N) (i : S32x64x64x256.Idx) :
    i ∈ ((cfg0.win 2).blk t).view.set ↔ ∀ a : Fin 4, win0_2.index t a * S1x64x64x256.size a ≤ (i a).val
      ∧ (i a).val < win0_2.index t a * S1x64x64x256.size a + S1x64x64x256.size a := by
  show i ∈ ((View.whole main_v18).slice (win0_2.rect t)).set ↔ _
  rw [View.set_slice_whole, Rect.mem_set_unit]
  exact Iff.rfl

/-- Every entry of the result array is written back by the grid point of its image. -/
theorem cover (i : S32x64x64x256.Idx) :
    ∃ t : Fin cfg0.N, (cfg0.win 2).flush t = true ∧ i ∈ ((cfg0.win 2).blk t).view.set := by
  have h0 : (i 0).val < 32 := (i 0).isLt
  have h1 : (i 1).val < 64 := (i 1).isLt
  have h2 : (i 2).val < 64 := (i 2).isLt
  have h3 : (i 3).val < 256 := (i 3).isLt
  obtain ⟨t, ht⟩ := idx_onto ⟨(i 0).val, h0⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 64 ≤ (i 1).val ∧ (i 1).val < win0_2.index t (1 : Fin 4) * 64 + 64; omega
  | ⟨2, _⟩ => show win0_2.index t (2 : Fin 4) * 64 ≤ (i 2).val ∧ (i 2).val < win0_2.index t (2 : Fin 4) * 64 + 64; omega
  | ⟨3, _⟩ => show win0_2.index t (3 : Fin 4) * 256 ≤ (i 3).val ∧ (i 3).val < win0_2.index t (3 : Fin 4) * 256 + 256; omega

/-- So the region's output array ends holding `G`. -/
theorem final (c : Dev nD) : (dats m 0 c).arrAt 2 cfg0.N = G m c :=
  (dats m 0 c).arrAt_eq_of_cover 2 (G m c) (fun t _ => flushed_eq m c t) cover

/-- The run, read: the result array ends holding the convolution of the first argument with the normalised second
    argument, and both arguments end unchanged. -/
theorem run : θ_run defs (onTc (τ := τ) (main (F := Ideal))) ⟨m, fun _ => 0, ρ⟩ fun r => ∀ c : Dev nD,
      r.2.mem ((c : Thread nD τ).loc main_v19)
          = Conv.convArr (m ((c : Thread nD τ).loc main_arg0)) (Conv.wn (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m ρ)
  refine ((h c).2 main_v19 (Pipeline.mem_restRefs_of main_v19 (by decide) (by decide))).trans ?_
  unfold Pipeline.afterTail₀
  show StableHlo.after hostOps1 _ (Proc.devRef .tc main_v19) = _
  after_results
  have hw : Pipeline.withArrays (cfgs 0).spec c (V0 m c) (fun w => (dats m 0 c).arrAt w (cfgs 0).N) (Proc.tc.devRef main_v18)
      = G m c := (Pipeline.withArrays_arr spec0 launch0.win.arr_inj c _ _ 2).trans (final m c)
  rw [hw]
  funext i
  obtain ⟨n, co, h', v, rfl⟩ : ∃ (n : Fin 32) (co : Fin 256) (h' v : Fin 64), i = ix4 n co h' v :=
    ⟨i 0, i 1, i 2, i 3, eq_ix4 i⟩
  exact (tail_apply (G m c) n co h' v).trans rfl

end Cert.KernelIdeal.Hand

end
-- ==== Proof.RPay.lean ====
import proofs.«152151_g2000206331192017_pallasbulk_745_16_alg».proof.Proof.Gen.ReferenceIdeal.Skeleton
import proofs.«152151_g2000206331192017_pallasbulk_745_16_alg».proof.Proof.WNorm
import proofs.«152151_g2000206331192017_pallasbulk_745_16_alg».proof.Proof.ConvSpec
import proofs.«152151_g2000206331192017_pallasbulk_745_16_alg».proof.Proof.LibMatmulAt
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx

namespace Cert.ReferenceIdeal.Hand

open Cert.ReferenceIdeal Cert.ReferenceIdeal.Gen

/-- One tap of the patch matrix: the window of the loaded rows shifted down by oa rows and right by ob columns,
    read at (hh, v, ci), is the loaded block at row hh + oa, column v + ob, channel ci. -/
theorem tap_apply (X : FVec Ideal S1x10x66x128 .f32) (oa ob : Nat)
    (ha : S10x66x128.Slices ![oa, 0, 0] S8x66x128) (hb : S8x66x128.Slices ![0, ob, 0] S8x64x128)
    (hh : Fin 8) (v : Fin 64) (ci : Fin 128) (h1 : hh.val + oa < 10) (h2 : v.val + ob < 66) :
    extractStridedSlice S8x64x128 ![0, ob, 0]
        (extractStridedSlice S8x66x128 ![oa, 0, 0] (shapeCast S10x66x128 X shapeCasts_S1x10x66x128_S10x66x128) ha) hb
        (ix3 hh v ci)
      = X (ix4 0 ⟨hh.val + oa, h1⟩ ⟨v.val + ob, h2⟩ ci) := by
  refine (extractStridedSlice_apply _ _ hb (ix3 hh v ci) (ix3 hh ⟨v.val + ob, h2⟩ ci) (fun a => match a with
    | ⟨0, _⟩ => by show hh.val = 0 + hh.val; omega
    | ⟨1, _⟩ => by show v.val + ob = ob + v.val; omega
    | ⟨2, _⟩ => by show ci.val = 0 + ci.val; omega)).trans ?_
  refine (extractStridedSlice_apply _ _ ha (ix3 hh ⟨v.val + ob, h2⟩ ci) (ix3 ⟨hh.val + oa, h1⟩ ⟨v.val + ob, h2⟩ ci)
    (fun a => match a with
    | ⟨0, _⟩ => by show hh.val + oa = oa + hh.val; omega
    | ⟨1, _⟩ => by show v.val + ob = 0 + (v.val + ob); omega
    | ⟨2, _⟩ => by show ci.val = 0 + ci.val; omega)).trans ?_
  refine shapeCast_apply X _ (ix3 ⟨hh.val + oa, h1⟩ ⟨v.val + ob, h2⟩ ci) (ix4 0 ⟨hh.val + oa, h1⟩ ⟨v.val + ob, h2⟩ ci) ?_
  rw [Shape.rowMajor_val_four, Shape.rowMajor_val_three]
  show ((0 * 10 + (hh.val + oa)) * 66 + (v.val + ob)) * 128 + ci.val = ((hh.val + oa) * 66 + (v.val + ob)) * 128 + ci.val
  omega

/-- The patch matrix before it is flattened: for each of the 8 × 64 output positions, the nine shifted windows laid
    side by side along the last axis (window (dy, dx) at columns (dy · 3 + dx) · 128 …). -/
def slab (v3 : FVec Ideal S1x10x66x128 .f32) : FVec Ideal S8x64x1152 .f32 :=
  have v4 : FVec Ideal S10x66x128 .f32 := shapeCast S10x66x128 v3 shapeCasts_S1x10x66x128_S10x66x128
  have v5 : FVec Ideal S8x66x128 .f32 := extractStridedSlice S8x66x128 ![0, 0, 0] v4 slices_S10x66x128_o0_0_0_S8x66x128
  have v6 : FVec Ideal S8x64x128 .f32 := extractStridedSlice S8x64x128 ![0, 0, 0] v5 slices_S8x66x128_o0_0_0_S8x64x128
  have v7 : FVec Ideal S8x64x128 .f32 := extractStridedSlice S8x64x128 ![0, 1, 0] v5 slices_S8x66x128_o0_1_0_S8x64x128
  have v8 : FVec Ideal S8x64x128 .f32 := extractStridedSlice S8x64x128 ![0, 2, 0] v5 slices_S8x66x128_o0_2_0_S8x64x128
  have v9 : FVec Ideal S8x66x128 .f32 := extractStridedSlice S8x66x128 ![1, 0, 0] v4 slices_S10x66x128_o1_0_0_S8x66x128
  have v10 : FVec Ideal S8x64x128 .f32 := extractStridedSlice S8x64x128 ![0, 0, 0] v9 slices_S8x66x128_o0_0_0_S8x64x128
  have v11 : FVec Ideal S8x64x128 .f32 := extractStridedSlice S8x64x128 ![0, 1, 0] v9 slices_S8x66x128_o0_1_0_S8x64x128
  have v12 : FVec Ideal S8x64x128 .f32 := extractStridedSlice S8x64x128 ![0, 2, 0] v9 slices_S8x66x128_o0_2_0_S8x64x128
  have v13 : FVec Ideal S8x66x128 .f32 := extractStridedSlice S8x66x128 ![2, 0, 0] v4 slices_S10x66x128_o2_0_0_S8x66x128
  have v14 : FVec Ideal S8x64x128 .f32 := extractStridedSlice S8x64x128 ![0, 0, 0] v13 slices_S8x66x128_o0_0_0_S8x64x128
  have v15 : FVec Ideal S8x64x128 .f32 := extractStridedSlice S8x64x128 ![0, 1, 0] v13 slices_S8x66x128_o0_1_0_S8x64x128
  have v16 : FVec Ideal S8x64x128 .f32 := extractStridedSlice S8x64x128 ![0, 2, 0] v13 slices_S8x66x128_o0_2_0_S8x64x128
  concatenate S8x64x1152 2 [⟨S8x64x128, v6⟩, ⟨S8x64x128, v7⟩, ⟨S8x64x128, v8⟩, ⟨S8x64x128, v10⟩, ⟨S8x64x128, v11⟩, ⟨S8x64x128, v12⟩, ⟨S8x64x128, v14⟩, ⟨S8x64x128, v15⟩, ⟨S8x64x128, v16⟩] concatenates_S8x64x128_S8x64x128_S8x64x128_S8x64x128_S8x64x128_S8x64x128_S8x64x128_S8x64x128_S8x64x128_S8x64x1152_d2

/-- The body's payload is the product of the flattened patch matrix with the weight matrix, stored as a block. -/
theorem pay_eq (X : FVec Ideal S1x10x66x128 .f32) (W : FVec Ideal S1152x256 .f32) :
    k0_pay1 (F := Ideal) X W
      = shapeCast S1x8x64x256
          (matmul dot_S512x1152_S1152x256_S512x256_1_0_0_1_n_n none
            (shapeCast S512x1152 (slab X) shapeCasts_S8x64x1152_S512x1152)
            (shapeCast S1152x256 W shapeCasts_S1152x256_S1152x256)
            (constant S512x256 .f32 0x00000000#32))
          shapeCasts_S512x256_S1x8x64x256 := rfl

/-- The patch matrix at position (hh, v), column (a · 3 + b) · 128 + ci: window (a, b) there, that is the loaded
    block at row hh + a, column v + b, channel ci. -/
theorem slab_apply (X : FVec Ideal S1x10x66x128 .f32) (hh : Fin 8) (v : Fin 64) (a b : Fin 3) (ci : Fin 128) :
    slab X (ix3 hh v ⟨(a.val * 3 + b.val) * 128 + ci.val, by have := a.isLt; have := b.isLt; have := ci.isLt; omega⟩)
      = X (ix4 0 ⟨hh.val + a.val, by have := hh.isLt; have := a.isLt; omega⟩ ⟨v.val + b.val, by have := v.isLt; have := b.isLt; omega⟩ ci) := by
  unfold slab
  fin_cases a <;> fin_cases b
  · exact Eq.trans (concatenate_apply_piece (t := S8x64x1152) 2 _ _ (ix3 hh v ⟨0 + ci.val, by have := ci.isLt; omega⟩) 0 (by show (0 : ℕ) < 9; omega) S8x64x128 _ rfl rfl 0 rfl (ix3 hh v ci)
      (fun b hb => match b with | ⟨0, _⟩ => rfl | ⟨1, _⟩ => rfl | ⟨2, _⟩ => absurd rfl hb) rfl)
      (tap_apply X 0 0 _ _ hh v ci _ _)
  · exact Eq.trans (concatenate_apply_piece (t := S8x64x1152) 2 _ _ (ix3 hh v ⟨128 + ci.val, by have := ci.isLt; omega⟩) 1 (by show (1 : ℕ) < 9; omega) S8x64x128 _ rfl rfl 128 rfl (ix3 hh v ci)
      (fun b hb => match b with | ⟨0, _⟩ => rfl | ⟨1, _⟩ => rfl | ⟨2, _⟩ => absurd rfl hb) rfl)
      (tap_apply X 0 1 _ _ hh v ci _ _)
  · exact Eq.trans (concatenate_apply_piece (t := S8x64x1152) 2 _ _ (ix3 hh v ⟨256 + ci.val, by have := ci.isLt; omega⟩) 2 (by show (2 : ℕ) < 9; omega) S8x64x128 _ rfl rfl 256 rfl (ix3 hh v ci)
      (fun b hb => match b with | ⟨0, _⟩ => rfl | ⟨1, _⟩ => rfl | ⟨2, _⟩ => absurd rfl hb) rfl)
      (tap_apply X 0 2 _ _ hh v ci _ _)
  · exact Eq.trans (concatenate_apply_piece (t := S8x64x1152) 2 _ _ (ix3 hh v ⟨384 + ci.val, by have := ci.isLt; omega⟩) 3 (by show (3 : ℕ) < 9; omega) S8x64x128 _ rfl rfl 384 rfl (ix3 hh v ci)
      (fun b hb => match b with | ⟨0, _⟩ => rfl | ⟨1, _⟩ => rfl | ⟨2, _⟩ => absurd rfl hb) rfl)
      (tap_apply X 1 0 _ _ hh v ci _ _)
  · exact Eq.trans (concatenate_apply_piece (t := S8x64x1152) 2 _ _ (ix3 hh v ⟨512 + ci.val, by have := ci.isLt; omega⟩) 4 (by show (4 : ℕ) < 9; omega) S8x64x128 _ rfl rfl 512 rfl (ix3 hh v ci)
      (fun b hb => match b with | ⟨0, _⟩ => rfl | ⟨1, _⟩ => rfl | ⟨2, _⟩ => absurd rfl hb) rfl)
      (tap_apply X 1 1 _ _ hh v ci _ _)
  · exact Eq.trans (concatenate_apply_piece (t := S8x64x1152) 2 _ _ (ix3 hh v ⟨640 + ci.val, by have := ci.isLt; omega⟩) 5 (by show (5 : ℕ) < 9; omega) S8x64x128 _ rfl rfl 640 rfl (ix3 hh v ci)
      (fun b hb => match b with | ⟨0, _⟩ => rfl | ⟨1, _⟩ => rfl | ⟨2, _⟩ => absurd rfl hb) rfl)
      (tap_apply X 1 2 _ _ hh v ci _ _)
  · exact Eq.trans (concatenate_apply_piece (t := S8x64x1152) 2 _ _ (ix3 hh v ⟨768 + ci.val, by have := ci.isLt; omega⟩) 6 (by show (6 : ℕ) < 9; omega) S8x64x128 _ rfl rfl 768 rfl (ix3 hh v ci)
      (fun b hb => match b with | ⟨0, _⟩ => rfl | ⟨1, _⟩ => rfl | ⟨2, _⟩ => absurd rfl hb) rfl)
      (tap_apply X 2 0 _ _ hh v ci _ _)
  · exact Eq.trans (concatenate_apply_piece (t := S8x64x1152) 2 _ _ (ix3 hh v ⟨896 + ci.val, by have := ci.isLt; omega⟩) 7 (by show (7 : ℕ) < 9; omega) S8x64x128 _ rfl rfl 896 rfl (ix3 hh v ci)
      (fun b hb => match b with | ⟨0, _⟩ => rfl | ⟨1, _⟩ => rfl | ⟨2, _⟩ => absurd rfl hb) rfl)
      (tap_apply X 2 1 _ _ hh v ci _ _)
  · exact Eq.trans (concatenate_apply_piece (t := S8x64x1152) 2 _ _ (ix3 hh v ⟨1024 + ci.val, by have := ci.isLt; omega⟩) 8 (by show (8 : ℕ) < 9; omega) S8x64x128 _ rfl rfl 1024 rfl (ix3 hh v ci)
      (fun b hb => match b with | ⟨0, _⟩ => rfl | ⟨1, _⟩ => rfl | ⟨2, _⟩ => absurd rfl hb) rfl)
      (tap_apply X 2 2 _ _ hh v ci _ _)

/-- What the body stores, entry by entry: the sum over the taps (row shift dy outermost, column shift dx next) and
    the channels of the loaded rows times the weight matrix's row (dy · 3 + dx) · 128 + ci. -/
theorem pay_apply (X : FVec Ideal S1x10x66x128 .f32) (W : FVec Ideal S1152x256 .f32) (hh : Fin 8) (v : Fin 64) (co : Fin 256) :
    k0_pay1 (F := Ideal) X W (ix4 0 hh v co)
      = ∑ dy : Fin 3, ∑ dx : Fin 3, ∑ ci : Fin 128,
          X (ix4 0 ⟨hh.val + dy.val, by have := hh.isLt; have := dy.isLt; omega⟩ ⟨v.val + dx.val, by have := v.isLt; have := dx.isLt; omega⟩ ci)
            * W (ix2 ⟨(dy.val * 3 + dx.val) * 128 + ci.val, by have := dx.isLt; have := dy.isLt; have := ci.isLt; omega⟩ co) := by
  have hrow : hh.val * 64 + v.val < 512 := by have := hh.isLt; have := v.isLt; omega
  refine (congrFun (pay_eq X W) _).trans ?_
  -- the stored block at (0, hh, v, co) is the product at row hh · 64 + v, column co
  refine (shapeCast_apply _ _ (ix4 0 hh v co) (ix2 ⟨hh.val * 64 + v.val, hrow⟩ co) ?_).trans ?_
  · rw [Shape.rowMajor_val_two, Shape.rowMajor_val_four]
    show (hh.val * 64 + v.val) * 256 + co.val = (((0 * 8 + hh.val) * 64 + v.val) * 256 + co.val)
    omega
  -- the product into the zero splat is the sum over the 1152 positions of the contraction axis
  refine (Cert.KernelIdeal.Hand.matmul_zero_plain_apply _ rfl none _ _ (ix2 ⟨hh.val * 64 + v.val, hrow⟩ co)).trans ?_
  -- split the position into (dy, dx, ci)
  refine (Conv.sum_1152 _).trans ?_
  refine Finset.sum_congr rfl fun a _ => Finset.sum_congr rfl fun b _ => Finset.sum_congr rfl fun ci _ => ?_
  have hcol : (a.val * 3 + b.val) * 128 + ci.val < 1152 := by have := a.isLt; have := b.isLt; have := ci.isLt; omega
  have h1 : shapeCast S512x1152 (slab X) shapeCasts_S8x64x1152_S512x1152
        (ix2 ⟨hh.val * 64 + v.val, hrow⟩ ⟨(a.val * 3 + b.val) * 128 + ci.val, hcol⟩)
      = X (ix4 0 ⟨hh.val + a.val, by have := hh.isLt; have := a.isLt; omega⟩ ⟨v.val + b.val, by have := v.isLt; have := b.isLt; omega⟩ ci) := by
    refine (shapeCast_apply _ _ _ (ix3 hh v ⟨(a.val * 3 + b.val) * 128 + ci.val, hcol⟩) ?_).trans (slab_apply X hh v a b ci)
    rw [Shape.rowMajor_val_two, Shape.rowMajor_val_three]
    show (hh.val * 64 + v.val) * 1152 + ((a.val * 3 + b.val) * 128 + ci.val) = (hh.val * 64 + v.val) * 1152 + ((a.val * 3 + b.val) * 128 + ci.val)
    rfl
  have h2 : shapeCast S1152x256 W shapeCasts_S1152x256_S1152x256 (ix2 ⟨(a.val * 3 + b.val) * 128 + ci.val, hcol⟩ co)
      = W (ix2 ⟨(a.val * 3 + b.val) * 128 + ci.val, hcol⟩ co) :=
    congrFun (shapeCast_self W _) _
  exact congrArg₂ (· * ·) h1 h2

end Cert.ReferenceIdeal.Hand

end
-- ==== Proof.RHost.lean ====
import proofs.«152151_g2000206331192017_pallasbulk_745_16_alg».proof.Proof.Gen.ReferenceIdeal.Frame
import proofs.«152151_g2000206331192017_pallasbulk_745_16_alg».proof.Proof.WNorm
import Idealize.ShloMosaic.Lib.Pipeline.Value
import Idealize.ShloMosaic.Lib.ValueIdx
import Idealize.ShloMosaic.Lib.StableHlo.Run
import Idealize.ShloMosaic.Lib.KernelVsHost

noncomputable section

open scoped BigOperators
open Idealize.ShloMosaic Idealize.ShloMosaic.TcCoe Idealize.SL.Sem Idealize.ShloMosaic.ValueIdx

namespace Cert.ReferenceIdeal.Hand

open Cert.ReferenceIdeal Cert.ReferenceIdeal.Gen

variable (m : (ℓ : Loc nD τ sig) → Buf (Elt Ideal) ℓ)

/-- The weight matrix as the host operations' composed term of the weight argument: the normalised stack, its axes
    reordered to (dy, dx, ci, co), flattened to 1152 rows, and padded by nothing. -/
theorem vW_eq (c : Dev nD) :
    (V m c main_v14 : S1152x256.Idx → EReal) =
      pad S1152x256 ![0, 0] ![0, 0] ![0, 0]
        (shapeCast S1152x256
          (transpose S3x3x128x256 [2, 3, 1, 0] (Conv.wn (m ((c : Thread nD τ).loc main_arg1))) transposes_S256x128x3x3_S3x3x128x256_2_3_1_0)
          shapeCasts_S3x3x128x256_S1152x256)
        (sitofp (F := Ideal) .f32 (constantI S_ 32 0#32)) pads_S1152x256_S1152x256_000_000 h_S_ := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- A pad of width zero changes nothing; row p = (dy · 3 + dx) · 128 + ci of the flattened array is entry (dy, dx, ci)
    of the reordered stack (row-major position ((dy · 3 + dx) · 128 + ci) · 256 + co on both sides), and the reordering
    [2, 3, 1, 0] puts the stack's entry (co, ci, dy, dx) there. -/
theorem flatT_apply (w : FVec Ideal S256x128x3x3 .f32) (dy dx : Fin 3) (ci : Fin 128) (co : Fin 256) (p : Fin 1152)
    (hp : p.val = (dy.val * 3 + dx.val) * 128 + ci.val) :
    pad S1152x256 ![0, 0] ![0, 0] ![0, 0]
        (shapeCast S1152x256
          (transpose S3x3x128x256 [2, 3, 1, 0] w transposes_S256x128x3x3_S3x3x128x256_2_3_1_0)
          shapeCasts_S3x3x128x256_S1152x256)
        (sitofp (F := Ideal) .f32 (constantI S_ 32 0#32)) pads_S1152x256_S1152x256_000_000 h_S_ (ix2 p co)
      = w (ix4 co ci dy dx) := by
  refine (pad_apply_of_inside _ _ _ _ _ _ _ (ix2 p co) (ix2 p co) ?_).trans ?_
  · intro a
    match a with
    | ⟨0, _⟩ => show p.val = 0 + p.val * (0 + 1); omega
    | ⟨1, _⟩ => show co.val = 0 + co.val * (0 + 1); omega
  refine (shapeCast_apply _ _ (ix2 p co) (ix4 dy dx ci co) ?_).trans ?_
  · rw [Shape.rowMajor_val_four, Shape.rowMajor_val_two]
    show ((dy.val * 3 + dx.val) * 128 + ci.val) * 256 + co.val = p.val * 256 + co.val
    rw [hp]
  refine transpose_apply _ _ _ _ (ix4 co ci dy dx) ?_
  intro b
  match b with
  | ⟨0, _⟩ => rfl
  | ⟨1, _⟩ => rfl
  | ⟨2, _⟩ => rfl
  | ⟨3, _⟩ => rfl

/-- The weight matrix the region finds: row (dy · 3 + dx) · 128 + ci, column co holds the normalised stack at
    (co, ci, dy, dx). -/
theorem vW_apply (c : Dev nD) (dy dx : Fin 3) (ci : Fin 128) (co : Fin 256) :
    (V m c main_v14 : S1152x256.Idx → EReal)
        (ix2 ⟨(dy.val * 3 + dx.val) * 128 + ci.val, by have := dx.isLt; have := dy.isLt; have := ci.isLt; omega⟩ co)
      = Conv.wn (m ((c : Thread nD τ).loc main_arg1)) (ix4 co ci dy dx) := by
  rw [vW_eq m c]
  exact flatT_apply _ dy dx ci co _ rfl

/-- The padding value: the integer zero converted to a float is the extended real zero. -/
theorem padv_zero (i : S_.Idx) : (sitofp (F := Ideal) .f32 (constantI S_ 32 0#32) : S_.Idx → EReal) i = 0 := by
  show (((0#32 : BitVec 32).toInt : ℝ) : EReal) = 0
  simp

/-- The image array as the host operations' composed term of the image argument: channels moved last, then padded. -/
theorem vX_eq (c : Dev nD) :
    (V m c main_v16 : S32x66x66x128.Idx → EReal) =
      pad S32x66x66x128 ![0, 1, 1, 0] ![0, 1, 1, 0] ![0, 0, 0, 0]
        (transpose S32x64x64x128 [0, 2, 3, 1] (m ((c : Thread nD τ).loc main_arg0)) transposes_S32x128x64x64_S32x64x64x128_0_2_3_1)
        (sitofp (F := Ideal) .f32 (constantI S_ 32 0#32)) pads_S32x64x64x128_S32x66x66x128_000_110_110_000 h_S_ := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- Channels moved last, then one zero on each side of the two image axes: entry (n, r, q, ci) is the image at
    (n, ci, r − 1, q − 1) when both r and q lie in 1 … 64 (the pad's low offset is 1, its interior step 1), and the
    padding value, zero, when either lies outside. -/
theorem padT_apply (x : FVec Ideal S32x128x64x64 .f32) (n : Fin 32) (r q : Fin 66) (ci : Fin 128) :
    pad S32x66x66x128 ![0, 1, 1, 0] ![0, 1, 1, 0] ![0, 0, 0, 0]
        (transpose S32x64x64x128 [0, 2, 3, 1] x transposes_S32x128x64x64_S32x64x64x128_0_2_3_1)
        (sitofp (F := Ideal) .f32 (constantI S_ 32 0#32)) pads_S32x64x64x128_S32x66x66x128_000_110_110_000 h_S_ (ix4 n r q ci)
      = Conv.xpad x n ci r.val q.val := by
  unfold Conv.xpad
  by_cases h : (1 ≤ r.val ∧ r.val ≤ 64) ∧ (1 ≤ q.val ∧ q.val ≤ 64)
  · rw [dif_pos h]
    refine (pad_apply_of_inside _ _ _ _ _ _ _ (ix4 n r q ci)
      (ix4 n (⟨r.val - 1, by omega⟩ : Fin 64) (⟨q.val - 1, by omega⟩ : Fin 64) ci) ?_).trans ?_
    · intro a
      match a with
      | ⟨0, _⟩ => show n.val = 0 + n.val * (0 + 1); omega
      | ⟨1, _⟩ => show r.val = 1 + (r.val - 1) * (0 + 1); omega
      | ⟨2, _⟩ => show q.val = 1 + (q.val - 1) * (0 + 1); omega
      | ⟨3, _⟩ => show ci.val = 0 + ci.val * (0 + 1); omega
    · refine transpose_apply _ _ _ _ (ix4 n ci (⟨r.val - 1, by omega⟩ : Fin 64) (⟨q.val - 1, by omega⟩ : Fin 64)) ?_
      intro b
      match b with
      | ⟨0, _⟩ => rfl
      | ⟨1, _⟩ => rfl
      | ⟨2, _⟩ => rfl
      | ⟨3, _⟩ => rfl
  · rw [dif_neg h]
    by_cases hr : 1 ≤ r.val ∧ r.val ≤ 64
    · have hq : ¬(1 ≤ q.val ∧ q.val ≤ 64) := fun hq => h ⟨hr, hq⟩
      refine (pad_apply_of_not_inside _ _ _ _ _ _ _ (ix4 n r q ci) ⟨2, by decide⟩ ?_).trans (padv_zero _)
      show ¬(1 ≤ q.val ∧ (q.val - 1) % (0 + 1) = 0 ∧ (q.val - 1) / (0 + 1) < 64)
      omega
    · refine (pad_apply_of_not_inside _ _ _ _ _ _ _ (ix4 n r q ci) ⟨1, by decide⟩ ?_).trans (padv_zero _)
      show ¬(1 ≤ r.val ∧ (r.val - 1) % (0 + 1) = 0 ∧ (r.val - 1) / (0 + 1) < 64)
      omega

/-- The image array the region finds: channels last, a ring of zeros around each image. -/
theorem vX_apply (c : Dev nD) (n : Fin 32) (r q : Fin 66) (ci : Fin 128) :
    (V m c main_v16 : S32x66x66x128.Idx → EReal) (ix4 n r q ci)
      = Conv.xpad (m ((c : Thread nD τ).loc main_arg0)) n ci r.val q.val := by
  rw [vX_eq m c]
  exact padT_apply _ n r q ci

/-- The closing transpose puts the output channel second. -/
theorem tail_apply (A : FVec Ideal S32x64x64x256 .f32) (n : Fin 32) (co : Fin 256) (h v : Fin 64) :
    transpose S32x256x64x64 [0, 3, 1, 2] A transposes_S32x64x64x256_S32x256x64x64_0_3_1_2 (ix4 n co h v) = A (ix4 n h v co) := by
  refine transpose_apply _ _ _ _ (ix4 n h v co) ?_
  intro b
  match b with
  | ⟨0, _⟩ => rfl
  | ⟨1, _⟩ => rfl
  | ⟨2, _⟩ => rfl
  | ⟨3, _⟩ => rfl

end Cert.ReferenceIdeal.Hand

end
-- ==== Proof.RRun.lean ====
/-
  The reference program's run read as a value. Each of the 32 × 8 grid points stages one image of the channels-last,
  zero-ringed batch (66 × 66 × 128) and the whole 1152 × 256 weight matrix, loads the ten image rows
  8 · t₁ … 8 · t₁ + 9 (t₁ the second grid coordinate), lays for each of the 8 × 64 output positions of its band the
  3 × 3 × 128 values under the nine taps (row shift outermost) along one row of a 512 × 1152 matrix, and stores the
  product with the weight matrix as the band's 8 × 64 × 256 block of the result. Entry by entry that block is the
  convolution (`flushed_eq`); the 256 blocks tile the result array (`result_covered`), so the array ends at
  `regionResult`, and the closing transpose turns `regionResult` into `Conv.convArr`.
-/
import proofs.«152151_g2000206331192017_pallasbulk_745_16_alg».proof.Proof.Gen.ReferenceIdeal.Frame
import proofs.«152151_g2000206331192017_pallasbulk_745_16_alg».proof.Proof.RPay
import proofs.«152151_g2000206331192017_pallasbulk_745_16_alg».proof.Proof.RHost
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen

variable {F : FTy → Type} [FloatOps F]

/-- The zero offsets of a whole-block access, as a constant function. -/
theorem zero_offsets4 : (![0, 0, 0, 0] : Fin 4 → Nat) = fun _ => 0 := funext fun a => by fin_cases a <;> rfl
theorem zero_offsets2 : (![0, 0] : Fin 2 → Nat) = fun _ => 0 := funext fun a => by fin_cases a <;> rfl

/-- What one grid point leaves in the result's block: the body's one store covers the block, and its payload is the
    matrix product of the ten image rows loaded at row offset 8 · (second grid coordinate) with the whole weight matrix. -/
theorem stored_eq (c : Dev nD) (i : grid0.Coords) (arg2 : Memref sig .tc .vmem S1x66x66x128 .f32) (harg2 : arg2.IsWhole) (arg3 : Memref sig .tc .vmem S1152x256 .f32) (harg3 : arg3.IsWhole) (arg4 : Memref sig .tc .vmem S1x8x64x256 .f32) (harg4 : arg4.IsWhole)
    (x0 : Vec F S1x66x66x128 .f32) (x1 : Vec F S1152x256 .f32) :
    out0_A_2 c i arg2 harg2 arg3 harg3 arg4 harg4 x0 x1
      = k0_pay1 (View.ld x0 (Rect.unit (s := S1x66x66x128) (k0_off1 i) S1x10x66x128.size (k0_off1_inb i))) x1 := by
  unfold out0_A_2
  rw [View.read_writes_eq_canon _ _ _ (cover0_A_2 c i arg2 harg2 arg3 harg3 arg4 harg4 x0 x1)]
  unfold kernelRun0_A
  dsimp only
  rw [View.canon_unit_zero zero_offsets4]
  simp only [View.readAt_eq_ld, harg2.read_unread, harg3.read_unread, View.ld_unit_zero (S := S1152x256) zero_offsets2]

/-- One stored entry: output row hh of the block, column v, channel co is the sum over the taps (dy, dx) and the
    channels of the image block's row 8 · (second grid coordinate) + hh + dy, column v + dx, times the weight
    matrix's row (dy · 3 + dx) · 128 + ci. -/
theorem stored_entry (x0 : Vec Ideal S1x66x66x128 .f32) (x1 : Vec Ideal S1152x256 .f32) (i : grid0.Coords)
    (hh : Fin 8) (v : Fin 64) (co : Fin 256) :
    k0_pay1 (F := Ideal) (View.ld x0 (Rect.unit (s := S1x66x66x128) (k0_off1 i) S1x10x66x128.size (k0_off1_inb i))) x1
        (ix4 0 hh v co)
      = ∑ dy : Fin 3, ∑ dx : Fin 3, ∑ ci : Fin 128,
          x0 (ix4 0 ⟨8 * (i 1).val + hh.val + dy.val, by
                have : (i 1).val < 8 := (i 1).isLt
                have := hh.isLt; have := dy.isLt; omega⟩
              ⟨v.val + dx.val, by have := v.isLt; have := dx.isLt; omega⟩ ci)
            * x1 (ix2 ⟨(dy.val * 3 + dx.val) * 128 + ci.val, by have := dx.isLt; have := dy.isLt; have := ci.isLt; omega⟩ co) := by
  refine (pay_apply _ x1 hh v co).trans ?_
  refine Finset.sum_congr rfl fun dy _ => Finset.sum_congr rfl fun dx _ => Finset.sum_congr rfl fun ci _ => ?_
  refine congrArg (· * _) ?_
  show x0 _ = x0 _
  refine congrArg x0 (funext fun a => Fin.ext ?_)
  have hoff := k0_off1_eq i
  match a with
  | ⟨0, _⟩ => show k0_off1 i 0 + 1 * 0 = 0; rw [hoff]; rfl
  | ⟨1, _⟩ => show k0_off1 i 1 + 1 * (hh.val + dy.val) = 8 * (i 1).val + hh.val + dy.val; rw [hoff]; show 8 * (i 1).val + 1 * (hh.val + dy.val) = _; omega
  | ⟨2, _⟩ => show k0_off1 i 2 + 1 * (v.val + dx.val) = v.val + dx.val; rw [hoff]; show 0 + 1 * (v.val + dx.val) = _; omega
  | ⟨3, _⟩ => show k0_off1 i 3 + 1 * ci.val = ci.val; rw [hoff]; show 0 + 1 * ci.val = _; omega

variable (m : (ℓ : Loc nD τ sig) → Buf (Elt Ideal) ℓ) (ρ : Dev nD → PrngReg)

/-- The block index maps over the 256 grid points: the image block moves with the first grid coordinate only, the
    weight block never moves, the result's block index is the grid point itself (image, band of eight rows). -/
theorem block_indices : ∀ t : Fin cfg0.N,
    win0_0.index t (0 : Fin 4) = (grid0.coords t 0).val ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = (grid0.coords t 0).val ∧ win0_2.index t (1 : Fin 4) = (grid0.coords t 1).val
    ∧ win0_2.index t (2 : Fin 4) = 0 ∧ win0_2.index t (3 : Fin 4) = 0 :=
  (by decide +kernel : ∀ t : Fin grid0.N, _)

/-- The image window's block at a grid point is the padded image number (first grid coordinate), whole. -/
theorem image_block_apply (c : Dev nD) (t : Fin cfg0.N) (r q : Fin 66) (ci : Fin 128) :
    (iblk m c 0 t : Vec Ideal S1x66x66x128 .f32) (ix4 0 r q ci)
      = (V m c main_v16 : S32x66x66x128.Idx → EReal) (ix4 ⟨(grid0.coords t 0).val, (grid0.coords t 0).isLt⟩ r q ci) := by
  obtain ⟨e0, e1, e2, e3, -⟩ := block_indices t
  unfold iblk
  rw [View.read_apply]
  show V m c main_v16 _ = V m c main_v16 _
  refine congrArg (V m c main_v16) (funext fun a => Fin.ext ?_)
  match a with
  | ⟨0, _⟩ => show win0_0.index t 0 * 1 + 1 * 0 = (grid0.coords t 0).val; rw [e0]; omega
  | ⟨1, _⟩ => show win0_0.index t 1 * 66 + 1 * r.val = r.val; rw [e1]; omega
  | ⟨2, _⟩ => show win0_0.index t 2 * 66 + 1 * q.val = q.val; rw [e2]; omega
  | ⟨3, _⟩ => show win0_0.index t 3 * 128 + 1 * ci.val = ci.val; rw [e3]; omega

/-- The weight window's block at every grid point is the whole weight matrix. -/
theorem weight_block_apply (c : Dev nD) (t : Fin cfg0.N) (k : Fin 1152) (co : Fin 256) :
    (iblk m c 1 t : Vec Ideal S1152x256 .f32) (ix2 k co) = (V m c main_v14 : S1152x256.Idx → EReal) (ix2 k co) := by
  obtain ⟨-, -, -, -, e0, e1, -⟩ := block_indices t
  unfold iblk
  rw [View.read_apply]
  show V m c main_v14 _ = V m c main_v14 _
  refine congrArg (V m c main_v14) (funext fun a => Fin.ext ?_)
  match a with
  | ⟨0, _⟩ => show win0_1.index t 0 * 1152 + 1 * k.val = k.val; rw [e0]; omega
  | ⟨1, _⟩ => show win0_1.index t 1 * 256 + 1 * co.val = co.val; rw [e1]; omega

/-- The array the region writes: the convolution of the first argument with the normalised second, in the layout
    [image, row, column, output channel] (the closing transpose moves the channel to second place). -/
def regionResult (c : Dev nD) : S32x64x64x256.Idx → EReal :=
  fun i => Conv.conv (m ((c : Thread nD τ).loc main_arg0)) (Conv.wn (m ((c : Thread nD τ).loc main_arg1))) (i 0) (i 3) (i 1) (i 2)

/-- What grid point t writes back is block t of that array: image (first grid coordinate), rows
    8 · (second grid coordinate) … + 7. Entry (hh, v, co) of the block depends on rows 8 · t₁ + hh … + 2 of the padded
    image, which is the zero-ringed argument, and on the weight matrix, which is the normalised stack. -/
theorem flushed_eq (c : Dev nD) (t : Fin cfg0.N) :
    (dats m 0 c).flushed 2 t = ((cfg0.win 2).blk t).view.read (Elt Ideal) (regionResult m c) := by
  show (cfg0.win 2).cut (grid0.coords t) ((dats m 0 c).after 2 t) = _
  rw [after0_2]
  unfold outsAt0
  rw [stored_eq]
  funext y
  obtain ⟨y0, hh, v, co, rfl⟩ : ∃ (y0 : Fin 1) (hh : Fin 8) (v : Fin 64) (co : Fin 256), y = ix4 y0 hh v co :=
    ⟨y 0, y 1, y 2, y 3, eq_ix4 y⟩
  obtain rfl : y0 = 0 := Subsingleton.elim _ _
  obtain ⟨-, -, -, -, -, -, e0, e1, e2, e3⟩ := block_indices t
  have ht0 : (grid0.coords t 0).val < 32 := (grid0.coords t 0).isLt
  have ht1 : (grid0.coords t 1).val < 8 := (grid0.coords t 1).isLt
  have hemb : ((cfg0.win 2).blk t).view.emb (ix4 0 hh v co)
      = (ix4 ⟨(grid0.coords t 0).val, ht0⟩ ⟨8 * (grid0.coords t 1).val + hh.val, by have := hh.isLt; omega⟩ v co : S32x64x64x256.Idx) := by
    funext a; apply Fin.ext
    match a with
    | ⟨0, _⟩ => show win0_2.index t 0 * 1 + 1 * 0 = (grid0.coords t 0).val; rw [e0]; omega
    | ⟨1, _⟩ => show win0_2.index t 1 * 8 + 1 * hh.val = 8 * (grid0.coords t 1).val + hh.val; rw [e1]; omega
    | ⟨2, _⟩ => show win0_2.index t 2 * 64 + 1 * v.val = v.val; rw [e2]; omega
    | ⟨3, _⟩ => show win0_2.index t 3 * 256 + 1 * co.val = co.val; rw [e3]; omega
  rw [View.read_apply]
  show k0_pay1 (F := Ideal) _ _ (ix4 0 hh v co) = regionResult m c (((cfg0.win 2).blk t).view.emb (ix4 0 hh v co))
  rw [hemb]
  refine (stored_entry (iblk m c 0 t) (iblk m c 1 t) (grid0.coords t) hh v co).trans ?_
  show _ = Conv.conv _ _ ⟨(grid0.coords t 0).val, ht0⟩ co ⟨8 * (grid0.coords t 1).val + hh.val, _⟩ v
  unfold Conv.conv
  refine Finset.sum_congr rfl fun dy _ => Finset.sum_congr rfl fun dx _ => Finset.sum_congr rfl fun ci _ => ?_
  refine congrArg₂ (· * ·) ?_ ?_
  · exact (image_block_apply m c t _ _ ci).trans (vX_apply m c _ _ _ ci)
  · exact (weight_block_apply m c t _ co).trans (vW_apply m c dy dx ci co)

/-- An index of the result array lies in grid point t's block iff each coordinate lies in the block's range on its axis. -/
theorem mem_result_block (t : Fin cfg0.N) (i : S32x64x64x256.Idx) :
    i ∈ ((cfg0.win 2).blk t).view.set ↔ ∀ a : Fin 4, win0_2.index t a * S1x8x64x256.size a ≤ (i a).val
      ∧ (i a).val < win0_2.index t a * S1x8x64x256.size a + S1x8x64x256.size a := by
  show i ∈ ((View.whole main_v17).slice (win0_2.rect t)).set ↔ _
  rw [View.set_slice_whole, Rect.mem_set_unit]
  exact Iff.rfl

/-- Every (image, band of eight rows) is some grid point's block of the result. -/
theorem block_onto : ∀ (q0 : Fin 32) (q1 : Fin 8), ∃ t : Fin cfg0.N, win0_2.index t = ![q0.val, q1.val, 0, 0] :=
  (by decide +kernel : ∀ (q0 : Fin 32) (q1 : Fin 8), ∃ t : Fin grid0.N, win0_2.index t = ![q0.val, q1.val, 0, 0])

/-- Every entry of the result array is written back by the grid point of its image and of its row's band (row / 8). -/
theorem result_covered (i : S32x64x64x256.Idx) :
    ∃ t : Fin cfg0.N, (cfg0.win 2).flush t = true ∧ i ∈ ((cfg0.win 2).blk t).view.set := by
  have h0 : (i 0).val < 32 := (i 0).isLt
  have h1 : (i 1).val < 64 := (i 1).isLt
  have h2 : (i 2).val < 64 := (i 2).isLt
  have h3 : (i 3).val < 256 := (i 3).isLt
  obtain ⟨t, ht⟩ := block_onto ⟨(i 0).val, h0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [mem_result_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 64 ≤ (i 2).val ∧ (i 2).val < win0_2.index t (2 : Fin 4) * 64 + 64; omega
  | ⟨3, _⟩ => show win0_2.index t (3 : Fin 4) * 256 ≤ (i 3).val ∧ (i 3).val < win0_2.index t (3 : Fin 4) * 256 + 256; omega

/-- So the region's result array ends holding the convolution in the layout [image, row, column, output channel]. -/
theorem region_result (c : Dev nD) : (dats m 0 c).arrAt 2 cfg0.N = regionResult m c :=
  (dats m 0 c).arrAt_eq_of_cover 2 (regionResult m c) (fun t _ => flushed_eq m c t) result_covered

/-- The run, read: the result array ends holding the convolution of the first argument with the normalised second
    argument, and both arguments end unchanged. -/
theorem run : θ_run defs (onTc (τ := τ) (main (F := Ideal))) ⟨m, fun _ => 0, ρ⟩ fun r => ∀ c : Dev nD,
      r.2.mem ((c : Thread nD τ).loc main_v18)
          = Conv.convArr (m ((c : Thread nD τ).loc main_arg0)) (Conv.wn (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun r h c => ⟨?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c)⟩)
    (run_main m ρ)
  refine ((h c).2 main_v18 (Pipeline.mem_restRefs_of main_v18 (by decide) (by decide))).trans ?_
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.tc.devRef main_v17)
      = regionResult m c := (Pipeline.withArrays_arr spec0 launch0.win.arr_inj c _ _ 2).trans (region_result m c)
  rw [hw]
  funext i
  obtain ⟨n, co, h', v, rfl⟩ : ∃ (n : Fin 32) (co : Fin 256) (h' v : Fin 64), i = ix4 n co h' v :=
    ⟨i 0, i 1, i 2, i 3, eq_ix4 i⟩
  exact (tail_apply (regionResult m c) n co h' v).trans rfl

end Cert.ReferenceIdeal.Hand

end
-- ==== Proof.lean ====
/-
  Two Pallas programs for one 3 × 3 "same" convolution with a normalised kernel stack, proved equal on the extended reals.

  Both programs normalise the stack w : [256, 128, 3, 3] channel by channel with the same chain of host operations
  (`Conv.wn`), bring the image batch x : [32, 128, 64, 64] to channels-last layout with a border of zeros, lay the nine
  taps and the 128 input channels along one contraction axis of length 1152, take ONE matrix product per grid point and
  transpose the result back to [n, co, h, v]. They differ in three ways, none of which changes the value on the extended
  reals: the kernel rounds both operands to bf16 (the identity here), pads the image columns inside the body rather
  than on the host, orders the contraction axis (column shift, row shift, channel) where the reference orders it
  (row shift, column shift, channel), and computes a whole image of 64 output rows per grid point where the reference
  computes 8 rows. Each program's result array is shown to be `Conv.convArr x (Conv.wn w)` entry by entry
  (`Cert.KernelIdeal.Hand.run`, `Cert.ReferenceIdeal.Hand.run`); the two orders of the contraction are the same sum by
  commutativity of addition alone, so no finiteness of the inputs is used.
-/
import proofs.«152151_g2000206331192017_pallasbulk_745_16_alg».proof.Defs
import proofs.«152151_g2000206331192017_pallasbulk_745_16_alg».proof.Proof.Gen.Kernel
import proofs.«152151_g2000206331192017_pallasbulk_745_16_alg».proof.Proof.Gen.Kernel.Frame
import proofs.«152151_g2000206331192017_pallasbulk_745_16_alg».proof.Proof.Gen.KernelIdeal
import proofs.«152151_g2000206331192017_pallasbulk_745_16_alg».proof.Proof.Gen.KernelIdeal.Frame
import proofs.«152151_g2000206331192017_pallasbulk_745_16_alg».proof.Proof.Gen.ReferenceIdeal
import proofs.«152151_g2000206331192017_pallasbulk_745_16_alg».proof.Proof.Gen.ReferenceIdeal.Frame
import proofs.«152151_g2000206331192017_pallasbulk_745_16_alg».proof.Proof.Gen.Pre_finite_inputs
import proofs.«152151_g2000206331192017_pallasbulk_745_16_alg».proof.Proof.KRun
import proofs.«152151_g2000206331192017_pallasbulk_745_16_alg».proof.Proof.RRun
import Idealize.ShloMosaic.Adequacy
import Idealize.ShloMosaic.Init

noncomputable section

namespace Cert.Proof

open Idealize.ShloMosaic Idealize.ShloMosaic.TcCoe Idealize.SL.Sem

/-- The two idealized programs, run from memories that agree on the arguments, both end with the result array at the
    convolution of the image batch with the normalised kernel stack. -/
theorem algebraic : Cert.algebraic_KernelIdeal_ReferenceIdeal := by
  intro m ρ m' ρ' _ hagree
  refine ⟨fun c => Conv.convArr (m ((c : Thread Cert.KernelIdeal.nD Cert.KernelIdeal.τ).loc Cert.KernelIdeal.main_arg0))
      (Conv.wn (m ((c : Thread Cert.KernelIdeal.nD Cert.KernelIdeal.τ).loc Cert.KernelIdeal.main_arg1))),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => Cert.ReferenceIdeal.Gen.frame m ρ,
    trivial,
    algebraic⟩

end Cert.Proof

end
